-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16384x128 : Shape := ⟨3, ![8, 16384, 128]⟩
abbrev S128x128 : Shape := ⟨2, ![128, 128]⟩
abbrev S128 : Shape := ⟨1, ![128]⟩
abbrev S_ : Shape := ⟨0, ![]⟩

class Facts : Prop where
  bcast_S_S8x16384x128 : S_.BroadcastsInDim S8x16384x128 (![] : Fin 0 → Fin S8x16384x128.rank)
  reducesTo_S8x16384x128_S_d0_1_2 : S8x16384x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S8x16384x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) : IVec S_ 1 :=
  let main_v0 : FVec F S8x16384x128 .f32 := Host.absf main_arg0
  let main_cst : FVec F S_ .f32 := constant S_ .f32 0x7F800000#32
  let main_v1 : FVec F S8x16384x128 .f32 := broadcastInDim S8x16384x128 ![] bcast_S_S8x16384x128 main_cst
  let main_v2 : IVec S8x16384x128 1 := cmpf .olt main_v0 main_v1
  let main_c : IVec S_ 1 := constantI S_ 1 1#1
  let main_v3 : IVec S_ 1 := (fun x v => Host.reduce IntOp.andi x v reducesTo_S8x16384x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S8x16384x128 : Shape := ⟨3, ![8, 16384, 128]⟩
abbrev S128x128 : Shape := ⟨2, ![128, 128]⟩
abbrev S128 : Shape := ⟨1, ![128]⟩
abbrev S128x384 : Shape := ⟨2, ![128, 384]⟩
abbrev S384 : Shape := ⟨1, ![384]⟩
abbrev S1x384 : Shape := ⟨2, ![1, 384]⟩
abbrev S1x4096x128 : Shape := ⟨3, ![1, 4096, 128]⟩
abbrev S4096x128 : Shape := ⟨2, ![4096, 128]⟩
abbrev S4096x384 : Shape := ⟨2, ![4096, 384]⟩
abbrev S32x128x128 : Shape := ⟨3, ![32, 128, 128]⟩
abbrev S32x128 : Shape := ⟨2, ![32, 128]⟩
abbrev S32x128x1 : Shape := ⟨3, ![32, 128, 1]⟩

abbrev nBuf : Space → Nat
  | .hbm => 15
  | .vmem => 6
  | .smem => 0
  | _ => 0

abbrev bufTy : (tb : Table) → Fin (tcTables nBuf tb) → BufTy
  | .hbm, ⟨0, _⟩ => ⟨S8x16384x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x384, .f32⟩
  | .hbm, ⟨11, _⟩ => ⟨S128x384, .bf16⟩
  | .hbm, ⟨12, _⟩ => ⟨S384, .f32⟩
  | .hbm, ⟨13, _⟩ => ⟨S1x384, .f32⟩
  | .hbm, ⟨14, _⟩ => ⟨S8x16384x128, .f32⟩
  | .local _ .vmem, ⟨0, _⟩ => ⟨S1x4096x128, .f32⟩
  | .local _ .vmem, ⟨1, _⟩ => ⟨S1x4096x128, .f32⟩
  | .local _ .vmem, ⟨2, _⟩ => ⟨S128x384, .bf16⟩
  | .local _ .vmem, ⟨3, _⟩ => ⟨S1x384, .f32⟩
  | .local _ .vmem, ⟨4, _⟩ => ⟨S1x4096x128, .f32⟩
  | .local _ .vmem, ⟨5, _⟩ => ⟨S1x4096x128, .f32⟩
  | _, _ => ⟨S8x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S128x128_S128x128_1_0 : S128x128.Transposes [1, 0] S128x128
  concatenates_S128x128_S128x128_S128x128_S128x384_d1 : Shape.Concatenates [S128x128, S128x128, S128x128] S128x384 1
  bitsLt_bf16_f32 : FTy.bits .bf16 < FTy.bits .f32
  concatenates_S128_S128_S128_S384_d0 : Shape.Concatenates [S128, S128, S128] S384 0
  shapeCasts_S384_S1x384 : S384.ShapeCasts S1x384
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S4096x384 : S1x384.Broadcasts S4096x384
  slices_S4096x384_o0_0_S4096x128 : S4096x384.Slices ![0, 0] S4096x128
  slices_S4096x384_o0_128_S4096x128 : S4096x384.Slices ![0, 128] S4096x128
  slices_S4096x384_o0_256_S4096x128 : S4096x384.Slices ![0, 256] S4096x128
  shapeCasts_S4096x128_S32x128x128 : S4096x128.ShapeCasts S32x128x128
  reduces_S32x128x128_S32x128 : S32x128x128.Reduces [2] S32x128
  shapeCasts_S32x128_S32x128x1 : S32x128.ShapeCasts S32x128x1
  broadcasts_S32x128x1_S32x128x128 : S32x128x1.Broadcasts S32x128x128
  shapeCasts_S32x128x128_S4096x128 : S32x128x128.ShapeCasts S4096x128
  shapeCasts_S4096x128_S1x4096x128 : S4096x128.ShapeCasts S1x4096x128
  dot_S4096x128_S128x384_S4096x384_1_0_0_1_n_n_wf : DotDims.WF S4096x128 S128x384 S4096x384 [1] [0] [0] [1] [] []
  dot_S32x128x128_S32x128x128_S32x128x128_2_2_1_1_0_0_wf : DotDims.WF S32x128x128 S32x128x128 S32x128x128 [2] [2] [1] [1] [0] [0]
  dot_S32x128x128_S32x128x128_S32x128x128_2_1_1_2_0_0_wf : DotDims.WF S32x128x128 S32x128x128 S32x128x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S8x16384x128.size a
  hwx0_0 : ∀ i : grid0.Coords, EltTy.bits .f32 = 32 ∨ (Rect.block (s := S8x16384x128) S1x4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .bf16 = 32 ∨ (Rect.block (s := S128x384) S128x384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x128.size a ≤ S8x16384x128.size a
  hwx0_3 : ∀ i : grid0.Coords, EltTy.bits .f32 = 32 ∨ (Rect.block (s := S8x16384x128) S1x4096x128.size (cc0_transform_3 i) (hinb0_3 i)).WholeWords (EltTy.packing .f32)

variable [Facts₀]

def dot_S4096x128_S128x384_S4096x384_1_0_0_1_n_n : DotDims S4096x128 S128x384 S4096x384 where
  lhsContracting := [1]
  rhsContracting := [0]
  lhsNonContracting := [0]
  rhsNonContracting := [1]
  lhsBatch := []
  rhsBatch := []
  wf := dot_S4096x128_S128x384_S4096x384_1_0_0_1_n_n_wf
def dot_S32x128x128_S32x128x128_S32x128x128_2_2_1_1_0_0 : DotDims S32x128x128 S32x128x128 S32x128x128 where
  lhsContracting := [2]
  rhsContracting := [2]
  lhsNonContracting := [1]
  rhsNonContracting := [1]
  lhsBatch := [0]
  rhsBatch := [0]
  wf := dot_S32x128x128_S32x128x128_S32x128x128_2_2_1_1_0_0_wf
def dot_S32x128x128_S32x128x128_S32x128x128_2_1_1_2_0_0 : DotDims S32x128x128 S32x128x128 S32x128x128 where
  lhsContracting := [2]
  rhsContracting := [1]
  lhsNonContracting := [1]
  rhsNonContracting := [2]
  lhsBatch := [0]
  rhsBatch := [0]
  wf := dot_S32x128x128_S32x128x128_S32x128x128_2_1_1_2_0_0_wf

abbrev win0_0 : Pipeline.Window sig grid0 :=
  Pipeline.Window.ofSpec (Memref.whole main_arg0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x16384x128 : Shape := ⟨3, ![8, 16384, 128]⟩
abbrev S128x128 : Shape := ⟨2, ![128, 128]⟩
abbrev S128 : Shape := ⟨1, ![128]⟩
abbrev S8x128x128x128 : Shape := ⟨4, ![8, 128, 128, 128]⟩
abbrev S1x1x1x128 : Shape := ⟨4, ![1, 1, 1, 128]⟩
abbrev S_ : Shape := ⟨0, ![]⟩
abbrev S8x128x128 : Shape := ⟨3, ![8, 128, 128]⟩
abbrev S8x128x128x1 : Shape := ⟨4, ![8, 128, 128, 1]⟩

abbrev nBuf : Space → Nat
  | .hbm => 37
  | .vmem => 0
  | .smem => 0
  | _ => 0

abbrev bufTy : (tb : Table) → Fin (tcTables nBuf tb) → BufTy
  | .hbm, ⟨0, _⟩ => ⟨S8x16384x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S8x128x128x128, .f32⟩
  | .hbm, ⟨8, _⟩ => ⟨S8x128x128x128, .f32⟩
  | .hbm, ⟨9, _⟩ => ⟨S1x1x1x128, .f32⟩
  | .hbm, ⟨10, _⟩ => ⟨S8x128x128x128, .f32⟩
  | .hbm, ⟨11, _⟩ => ⟨S8x128x128x128, .f32⟩
  | .hbm, ⟨12, _⟩ => ⟨S8x128x128x128, .f32⟩
  | .hbm, ⟨13, _⟩ => ⟨S1x1x1x128, .f32⟩
  | .hbm, ⟨14, _⟩ => ⟨S8x128x128x128, .f32⟩
  | .hbm, ⟨15, _⟩ => ⟨S8x128x128x128, .f32⟩
  | .hbm, ⟨16, _⟩ => ⟨S8x128x128x128, .f32⟩
  | .hbm, ⟨17, _⟩ => ⟨S1x1x1x128, .f32⟩
  | .hbm, ⟨18, _⟩ => ⟨S8x128x128x128, .f32⟩
  | .hbm, ⟨19, _⟩ => ⟨S8x128x128x128, .f32⟩
  | .hbm, ⟨20, _⟩ => ⟨S8x128x128x128, .f32⟩
  | .hbm, ⟨21, _⟩ => ⟨S_, .f32⟩
  | .hbm, ⟨22, _⟩ => ⟨S8x128x128, .f32⟩
  | .hbm, ⟨23, _⟩ => ⟨S_, .f32⟩
  | .hbm, ⟨24, _⟩ => ⟨S8x128x128, .f32⟩
  | .hbm, ⟨25, _⟩ => ⟨S8x128x128, .f32⟩
  | .hbm, ⟨26, _⟩ => ⟨S8x128x128x1, .f32⟩
  | .hbm, ⟨27, _⟩ => ⟨S8x128x128x128, .f32⟩
  | .hbm, ⟨28, _⟩ => ⟨S8x128x128x128, .f32⟩
  | .hbm, ⟨29, _⟩ => ⟨S8x128x128x128, .f32⟩
  | .hbm, ⟨30, _⟩ => ⟨S_, .f32⟩
  | .hbm, ⟨31, _⟩ => ⟨S8x128x128, .f32⟩
  | .hbm, ⟨32, _⟩ => ⟨S8x128x128x1, .f32⟩
  | .hbm, ⟨33, _⟩ => ⟨S8x128x128x128, .f32⟩
  | .hbm, ⟨34, _⟩ => ⟨S8x128x128x128, .f32⟩
  | .hbm, ⟨35, _⟩ => ⟨S8x128x128x128, .f32⟩
  | .hbm, ⟨36, _⟩ => ⟨S8x16384x128, .f32⟩
  | _, _ => ⟨S8x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  shapeCasts_S8x16384x128_S8x128x128x128 : S8x16384x128.ShapeCasts S8x128x128x128
  bcast_S128_S1x1x1x128_3 : S128.BroadcastsInDim S1x1x1x128 (![3] : Fin 1 → Fin S1x1x1x128.rank)
  bcast_S1x1x1x128_S8x128x128x128_0_1_2_3 : S1x1x1x128.BroadcastsInDim S8x128x128x128 (![0, 1, 2, 3] : Fin 4 → Fin S8x128x128x128.rank)
  reducesTo_S8x128x128x128_S8x128x128_d3 : S8x128x128x128.ReducesTo [3] S8x128x128
  h_S_ : 0 < S_.numel
  bcast_S_S8x128x128 : S_.BroadcastsInDim S8x128x128 (![] : Fin 0 → Fin S8x128x128.rank)
  bcast_S8x128x128_S8x128x128x1_0_1_2 : S8x128x128.BroadcastsInDim S8x128x128x1 (![0, 1, 2] : Fin 3 → Fin S8x128x128x1.rank)
  bcast_S8x128x128x1_S8x128x128x128_0_1_2_3 : S8x128x128x1.BroadcastsInDim S8x128x128x128 (![0, 1, 2, 3] : Fin 4 → Fin S8x128x128x128.rank)
  shapeCasts_S8x128x128x128_S8x16384x128 : S8x128x128x128.ShapeCasts S8x16384x128
  dot_S8x128x128x128_S128x128_S8x128x128x128_3_1_012_0_n_n_wf : DotDims.WF S8x128x128x128 S128x128 S8x128x128x128 [3] [1] [0, 1, 2] [0] [] []
  dot_S8x128x128x128_S8x128x128x128_S8x128x128x128_3_3_2_2_01_01_wf : DotDims.WF S8x128x128x128 S8x128x128x128 S8x128x128x128 [3] [3] [2] [2] [0, 1] [0, 1]
  dot_S8x128x128x128_S8x128x128x128_S8x128x128x128_3_2_2_3_01_01_wf : DotDims.WF S8x128x128x128 S8x128x128x128 S8x128x128x128 [3] [2] [2] [3] [0, 1] [0, 1]

variable [Facts₀]

def dot_S8x128x128x128_S128x128_S8x128x128x128_3_1_012_0_n_n : DotDims S8x128x128x128 S128x128 S8x128x128x128 where
  lhsContracting := [3]
  rhsContracting := [1]
  lhsNonContracting := [0, 1, 2]
  rhsNonContracting := [0]
  lhsBatch := []
  rhsBatch := []
  wf := dot_S8x128x128x128_S128x128_S8x128x128x128_3_1_012_0_n_n_wf
def dot_S8x128x128x128_S8x128x128x128_S8x128x128x128_3_3_2_2_01_01 : DotDims S8x128x128x128 S8x128x128x128 S8x128x128x128 where
  lhsContracting := [3]
  rhsContracting := [3]
  lhsNonContracting := [2]
  rhsNonContracting := [2]
  lhsBatch := [0, 1]
  rhsBatch := [0, 1]
  wf := dot_S8x128x128x128_S8x128x128x128_S8x128x128x128_3_3_2_2_01_01_wf
def dot_S8x128x128x128_S8x128x128x128_S8x128x128x128_3_2_2_3_01_01 : DotDims S8x128x128x128 S8x128x128x128 S8x128x128x128 where
  lhsContracting := [3]
  rhsContracting := [2]
  lhsNonContracting := [2]
  rhsNonContracting := [3]
  lhsBatch := [0, 1]
  rhsBatch := [0, 1]
  wf := dot_S8x128x128x128_S8x128x128x128_S8x128x128x128_3_2_2_3_01_01_wf

class Facts : Prop extends Facts₀ where

variable [Facts]
-- ==== Proof.KernelFrame.lean ====
/-
  The frame of `Kernel`: the program runs to the end, nothing faults, and its argument arrays end unchanged.

  @main is seven host operations (three transposes, the concatenation of the three transposed weight matrices along
  the columns, its rounding to bf16, the concatenation of the three bias vectors, a reshape to one row) and then one
  pipelined region over a grid of 8 × 4 points. At a point (n, p) the body loads the block x[n, 4096 p .. 4096 p + 4095, :]
  of the first argument, the whole fused weight matrix and the whole fused bias row, computes, and overwrites the whole
  block out[n, 4096 p .. 4096 p + 4095, :] of the result with one store. Nothing else is touched: the body has no
  scratch, no semaphore and no transfer of its own.

  So the region's proof data is: each input window's staging buffer holds that window's block of the array as the
  region found it, at every point (for the two windows with a constant index the block never changes, and the body
  only reads them); the output window's staging buffer holds, after the body, the one stored value as a function of
  the three loaded blocks. The first argument is staged and never written back; the other six arguments are not
  staged at all; the host operations write only their own results. Hence every argument ends as launched.
-/
import proofs.«144813_j45097156608034_2_alg».proof.Proof.Gen.Kernel.Launch
import proofs.«144813_j45097156608034_2_alg».proof.Proof.Gen.Kernel.Skeleton
import proofs.«144813_j45097156608034_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The TensorCore buffers of core `c` when the region is entered: the launch contents after the seven host operations. -/
abbrev V (c : Dev nD) (b : Ref sig .tc) : Buf (Elt F) ((c : Thread nD τ).loc b) :=
  StableHlo.after hostOps0 (fun b => m (c, b)) b

/-- None of the host operations allocates: each writes its result from its operands. -/
theorem hostOps0_fresh : (hostOps0 : List (HloOp τ sig (Elt F))).Forall fun op => op.fresh = ∅ := by
  simp only [List.Forall]; repeat' constructor

/-- @main is the host operations and then the region, which is entered at the contents `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that no host operation writes is found by the region as launched: the host operations write
    `main_v0` … `main_v6` only. -/
theorem V_of_not_written (c : Dev nD) (b : Ref sig .tc)
    (h0 : b ≠ main_v0) (h1 : b ≠ main_v1) (h2 : b ≠ main_v2) (h3 : b ≠ main_v3) (h4 : b ≠ main_v4) (h5 : b ≠ main_v5) (h6 : b ≠ main_v6) :
    V m c b = m ((c : Thread nD τ).loc b) :=
  StableHlo.after_of_forall_not_mem (b := Proc.devRef .tc b) _ _ (List.forall_iff_forall_mem.mp (by
    simp only [hostOps0, List.Forall, StableHlo.unary_writes, StableHlo.nary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6⟩))

theorem V_main_arg0 (c : Dev nD) : V m c main_arg0 = m ((c : Thread nD τ).loc main_arg0) :=
  V_of_not_written m c main_arg0 (by decide) (by decide) (by decide) (by decide) (by decide) (by decide) (by decide)
theorem V_main_arg1 (c : Dev nD) : V m c main_arg1 = m ((c : Thread nD τ).loc main_arg1) :=
  V_of_not_written m c main_arg1 (by decide) (by decide) (by decide) (by decide) (by decide) (by decide) (by decide)
theorem V_main_arg2 (c : Dev nD) : V m c main_arg2 = m ((c : Thread nD τ).loc main_arg2) :=
  V_of_not_written m c main_arg2 (by decide) (by decide) (by decide) (by decide) (by decide) (by decide) (by decide)
theorem V_main_arg3 (c : Dev nD) : V m c main_arg3 = m ((c : Thread nD τ).loc main_arg3) :=
  V_of_not_written m c main_arg3 (by decide) (by decide) (by decide) (by decide) (by decide) (by decide) (by decide)
theorem V_main_arg4 (c : Dev nD) : V m c main_arg4 = m ((c : Thread nD τ).loc main_arg4) :=
  V_of_not_written m c main_arg4 (by decide) (by decide) (by decide) (by decide) (by decide) (by decide) (by decide)
theorem V_main_arg5 (c : Dev nD) : V m c main_arg5 = m ((c : Thread nD τ).loc main_arg5) :=
  V_of_not_written m c main_arg5 (by decide) (by decide) (by decide) (by decide) (by decide) (by decide) (by decide)
theorem V_main_arg6 (c : Dev nD) : V m c main_arg6 = m ((c : Thread nD τ).loc main_arg6) :=
  V_of_not_written m c main_arg6 (by decide) (by decide) (by decide) (by decide) (by decide) (by decide) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of the first input (the block of `x`) holds the window's block at every point: it is fetched
    at every point. Stated for any proof data over the region-entry arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging buffer of the fused weight matrix holds the whole matrix at every point: fetched at the first point,
    left in place by the body, and the window's index never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The same for the fused bias row. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run of the region to the library's post (every staged array at what the write-backs left, every other
    unscoped buffer as the region found it) to the claim's: the first argument is an input window's array, never
    written back; the other six are not staged; none is written by a host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's accesses: each is a whole buffer -/

abbrev rX : Rect S1x4096x128 := Rect.unit (s := S1x4096x128) ![0, 0, 0] S1x4096x128.size inb_S1x4096x128_S1x4096x128_0_0_0
abbrev rW : Rect S128x384 := Rect.unit (s := S128x384) ![0, 0] S128x384.size inb_S128x384_S128x384_0_0
abbrev rB : Rect S1x384 := Rect.unit (s := S1x384) ![0, 0] S1x384.size inb_S1x384_S1x384_0_0

/-! ## What the body leaves in the output window's buffer -/

/-- The output staging buffer after the body, from the three input blocks: its one store, of the body's one payload. -/
def out0_3 (x0 : Vec F S1x4096x128 .f32) (x1 : Vec F S128x384 .bf16) (x2 : Vec F S1x384 .f32) : Vec F S1x4096x128 .f32 :=
  View.canon [⟨rX, k0_pay1 (View.ld x0 rX) (View.ld x1 rW) (View.ld x2 rB)⟩]

/-- The one store covers the buffer. -/
theorem cover0_3 (p0 : Vec F S1x4096x128 .f32) (y : S1x4096x128.Idx) :
    ∃ pc ∈ ([⟨rX, p0⟩] : List (View.Piece (Elt F) S1x4096x128 .f32)), y ∈ pc.1.set :=
  View.cover_of_tiled [⟨rX, p0⟩] S1x4096x128.size (by rfl) y

/-! ## The body's triple -/

set_option maxHeartbeats 1000000 in
/-- The body on whole staging memrefs — the inputs' at contents `x0`, `x1`, `x2`, the output's at anything — runs to
    its end leaving the inputs' as they were and the output's at `out0_3 x0 x1 x2`: three loads, a load of the output
    buffer whose value is not used, one store over the whole buffer. -/
theorem sound_kernel (c : Dev nD) (E : Set ℕ) (i : grid0.Coords)
    (arg2 : Memref sig .tc .vmem S1x4096x128 .f32) (harg2 : arg2.IsWhole) (arg3 : Memref sig .tc .vmem S128x384 .bf16) (harg3 : arg3.IsWhole)
    (arg4 : Memref sig .tc .vmem S1x384 .f32) (harg4 : arg4.IsWhole) (arg5 : Memref sig .tc .vmem S1x4096x128 .f32) (harg5 : arg5.IsWhole)
    (x0 : Vec F S1x4096x128 .f32) (x1 : Vec F S128x384 .bf16) (x2 : Vec F S1x384 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__sa_kernel i arg2 harg2 arg3 harg3 arg4 harg4 arg5 harg5) K := by
  simp only [cc0__sa_kernel_eq_skeleton]; unfold cc0__sa_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region on core `c`: the arrays as the region finds them; after the body at point `t` each
    input's buffer at its block and the output's at `out0_3` of the three input blocks; the invariant is the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    write-backs left of the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs, and its seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Frame

end
-- ==== Proof.KernelIdealFrame.lean ====
/-
  The frame of `KernelIdeal`: the program runs to the end, nothing faults, and its argument arrays end unchanged.

  @main is seven host operations (three transposes, the concatenation of the three transposed weight matrices along
  the columns, its rounding to bf16, the concatenation of the three bias vectors, a reshape to one row) and then one
  pipelined region over a grid of 8 × 4 points. At a point (n, p) the body loads the block x[n, 4096 p .. 4096 p + 4095, :]
  of the first argument, the whole fused weight matrix and the whole fused bias row, computes, and overwrites the whole
  block out[n, 4096 p .. 4096 p + 4095, :] of the result with one store. Nothing else is touched: the body has no
  scratch, no semaphore and no transfer of its own.

  So the region's proof data is: each input window's staging buffer holds that window's block of the array as the
  region found it, at every point (for the two windows with a constant index the block never changes, and the body
  only reads them); the output window's staging buffer holds, after the body, the one stored value as a function of
  the three loaded blocks. The first argument is staged and never written back; the other six arguments are not
  staged at all; the host operations write only their own results. Hence every argument ends as launched.
-/
import proofs.«144813_j45097156608034_2_alg».proof.Proof.Gen.KernelIdeal.Launch
import proofs.«144813_j45097156608034_2_alg».proof.Proof.Gen.KernelIdeal.Skeleton
import proofs.«144813_j45097156608034_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The TensorCore buffers of core `c` when the region is entered: the launch contents after the seven host operations. -/
abbrev V (c : Dev nD) (b : Ref sig .tc) : Buf (Elt F) ((c : Thread nD τ).loc b) :=
  StableHlo.after hostOps0 (fun b => m (c, b)) b

/-- None of the host operations allocates: each writes its result from its operands. -/
theorem hostOps0_fresh : (hostOps0 : List (HloOp τ sig (Elt F))).Forall fun op => op.fresh = ∅ := by
  simp only [List.Forall]; repeat' constructor

/-- @main is the host operations and then the region, which is entered at the contents `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that no host operation writes is found by the region as launched: the host operations write
    `main_v0` … `main_v6` only. -/
theorem V_of_not_written (c : Dev nD) (b : Ref sig .tc)
    (h0 : b ≠ main_v0) (h1 : b ≠ main_v1) (h2 : b ≠ main_v2) (h3 : b ≠ main_v3) (h4 : b ≠ main_v4) (h5 : b ≠ main_v5) (h6 : b ≠ main_v6) :
    V m c b = m ((c : Thread nD τ).loc b) :=
  StableHlo.after_of_forall_not_mem (b := Proc.devRef .tc b) _ _ (List.forall_iff_forall_mem.mp (by
    simp only [hostOps0, List.Forall, StableHlo.unary_writes, StableHlo.nary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6⟩))

theorem V_main_arg0 (c : Dev nD) : V m c main_arg0 = m ((c : Thread nD τ).loc main_arg0) :=
  V_of_not_written m c main_arg0 (by decide) (by decide) (by decide) (by decide) (by decide) (by decide) (by decide)
theorem V_main_arg1 (c : Dev nD) : V m c main_arg1 = m ((c : Thread nD τ).loc main_arg1) :=
  V_of_not_written m c main_arg1 (by decide) (by decide) (by decide) (by decide) (by decide) (by decide) (by decide)
theorem V_main_arg2 (c : Dev nD) : V m c main_arg2 = m ((c : Thread nD τ).loc main_arg2) :=
  V_of_not_written m c main_arg2 (by decide) (by decide) (by decide) (by decide) (by decide) (by decide) (by decide)
theorem V_main_arg3 (c : Dev nD) : V m c main_arg3 = m ((c : Thread nD τ).loc main_arg3) :=
  V_of_not_written m c main_arg3 (by decide) (by decide) (by decide) (by decide) (by decide) (by decide) (by decide)
theorem V_main_arg4 (c : Dev nD) : V m c main_arg4 = m ((c : Thread nD τ).loc main_arg4) :=
  V_of_not_written m c main_arg4 (by decide) (by decide) (by decide) (by decide) (by decide) (by decide) (by decide)
theorem V_main_arg5 (c : Dev nD) : V m c main_arg5 = m ((c : Thread nD τ).loc main_arg5) :=
  V_of_not_written m c main_arg5 (by decide) (by decide) (by decide) (by decide) (by decide) (by decide) (by decide)
theorem V_main_arg6 (c : Dev nD) : V m c main_arg6 = m ((c : Thread nD τ).loc main_arg6) :=
  V_of_not_written m c main_arg6 (by decide) (by decide) (by decide) (by decide) (by decide) (by decide) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of the first input (the block of `x`) holds the window's block at every point: it is fetched
    at every point. Stated for any proof data over the region-entry arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging buffer of the fused weight matrix holds the whole matrix at every point: fetched at the first point,
    left in place by the body, and the window's index never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The same for the fused bias row. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run of the region to the library's post (every staged array at what the write-backs left, every other
    unscoped buffer as the region found it) to the claim's: the first argument is an input window's array, never
    written back; the other six are not staged; none is written by a host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's accesses: each is a whole buffer -/

abbrev rX : Rect S1x4096x128 := Rect.unit (s := S1x4096x128) ![0, 0, 0] S1x4096x128.size inb_S1x4096x128_S1x4096x128_0_0_0
abbrev rW : Rect S128x384 := Rect.unit (s := S128x384) ![0, 0] S128x384.size inb_S128x384_S128x384_0_0
abbrev rB : Rect S1x384 := Rect.unit (s := S1x384) ![0, 0] S1x384.size inb_S1x384_S1x384_0_0

/-! ## What the body leaves in the output window's buffer -/

/-- The output staging buffer after the body, from the three input blocks: its one store, of the body's one payload. -/
def out0_3 (x0 : Vec F S1x4096x128 .f32) (x1 : Vec F S128x384 .bf16) (x2 : Vec F S1x384 .f32) : Vec F S1x4096x128 .f32 :=
  View.canon [⟨rX, k0_pay1 (View.ld x0 rX) (View.ld x1 rW) (View.ld x2 rB)⟩]

/-- The one store covers the buffer. -/
theorem cover0_3 (p0 : Vec F S1x4096x128 .f32) (y : S1x4096x128.Idx) :
    ∃ pc ∈ ([⟨rX, p0⟩] : List (View.Piece (Elt F) S1x4096x128 .f32)), y ∈ pc.1.set :=
  View.cover_of_tiled [⟨rX, p0⟩] S1x4096x128.size (by rfl) y

/-! ## The body's triple -/

set_option maxHeartbeats 1000000 in
/-- The body on whole staging memrefs — the inputs' at contents `x0`, `x1`, `x2`, the output's at anything — runs to
    its end leaving the inputs' as they were and the output's at `out0_3 x0 x1 x2`: three loads, a load of the output
    buffer whose value is not used, one store over the whole buffer. -/
theorem sound_kernel (c : Dev nD) (E : Set ℕ) (i : grid0.Coords)
    (arg2 : Memref sig .tc .vmem S1x4096x128 .f32) (harg2 : arg2.IsWhole) (arg3 : Memref sig .tc .vmem S128x384 .bf16) (harg3 : arg3.IsWhole)
    (arg4 : Memref sig .tc .vmem S1x384 .f32) (harg4 : arg4.IsWhole) (arg5 : Memref sig .tc .vmem S1x4096x128 .f32) (harg5 : arg5.IsWhole)
    (x0 : Vec F S1x4096x128 .f32) (x1 : Vec F S128x384 .bf16) (x2 : Vec F S1x384 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__sa_kernel i arg2 harg2 arg3 harg3 arg4 harg4 arg5 harg5) K := by
  simp only [cc0__sa_kernel_eq_skeleton]; unfold cc0__sa_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region on core `c`: the arrays as the region finds them; after the body at point `t` each
    input's buffer at its block and the output's at `out0_3` of the three input blocks; the invariant is the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    write-backs left of the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs, and its seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Frame

end
-- ==== Proof.Spec.lean ====
/-
  The function both programs compute, on the extended reals.

  The input `x` has 8 batches of 16384 rows of 128 features. The rows of a batch are cut into 128 consecutive windows
  of 128 rows; attention is computed inside each window and nowhere else. For a window, with its 128 rows `x_w`:

    q_w = W_q x_w + b_q,   k_u = W_k x_u + b_k,   v_u = W_v x_u + b_v                (each a vector of 128 entries)
    s(w, u) = Σ_e q_w[e] · k_u[e]                                                     (no 1/√d factor)
    m(w) = max_u s(w, u)                                                              (a fold of max from −∞)
    p(w, u) = exp (s(w, u) − m(w))
    a(w, u) = p(w, u) / Σ_u' p(w, u')
    out_w[d] = Σ_u a(w, u) · v_u[d]

  Every sum runs over `Fin 128`. The order of the two factors in each product and the placement of each bias on the right
  of its sum are those both programs use, so that the two sides meet this function without any algebraic law: the proof
  is only about which entry of which array each operand is.
-/
import Idealize.ShloMosaic.PureOps.Ideal
import Idealize.ShloMosaic.Lib.ValueIdx

noncomputable section

open scoped BigOperators

namespace Cert.WindowAttention

open Idealize.ShloMosaic Idealize.ShloMosaic.ValueIdx

/-- The value both programs start a row's maximum from: the f32 pattern of −∞, kept as a pattern (both sides print
    the same word, so it is never evaluated). -/
abbrev negInf : EReal := Ideal.ofBits .f32 0xFF800000#32

/-- The score of query row `w` against key row `u`: the inner product over the 128 features. -/
def score (Q K : Fin 128 → Fin 128 → EReal) (w u : Fin 128) : EReal := ∑ e : Fin 128, Q w e * K u e

/-- A query row's largest score. -/
def rowMax (Q K : Fin 128 → Fin 128 → EReal) (w : Fin 128) : EReal :=
  (Finset.univ : Finset (Fin 128)).fold max negInf (score Q K w)

/-- The exponential of a score less its row's maximum. -/
def expScore (Q K : Fin 128 → Fin 128 → EReal) (w u : Fin 128) : EReal := Ideal.exp (score Q K w u - rowMax Q K w)

/-- The attention weight of key row `u` for query row `w`: the softmax over the window's 128 key rows. -/
def weight (Q K : Fin 128 → Fin 128 → EReal) (w u : Fin 128) : EReal :=
  Ideal.div (expScore Q K w u) (∑ u' : Fin 128, expScore Q K w u')

/-- One window's attention: the weighted sum of the value rows. -/
def windowAttn (Q K V : Fin 128 → Fin 128 → EReal) (w d : Fin 128) : EReal := ∑ u : Fin 128, weight Q K w u * V u d

/-- Row `w` of window `p` among a batch's 16384 rows. -/
def row (p w : Fin 128) : Fin 16384 := ⟨128 * p.val + w.val, by have := p.isLt; have := w.isLt; omega⟩

/-- A linear projection of one row of `x`: entry `e` of `W x_s + b`. -/
def proj (x : (⟨3, ![8, 16384, 128]⟩ : Shape).Idx → EReal) (W : (⟨2, ![128, 128]⟩ : Shape).Idx → EReal)
    (b : (⟨1, ![128]⟩ : Shape).Idx → EReal) (n : Fin 8) (s : Fin 16384) (e : Fin 128) : EReal :=
  (∑ k : Fin 128, x (ix3 n s k) * W (ix2 e k)) + b (ix1 e)

/-- The result: entry (n, s, d) is entry `d` of the attention output of row `s mod 128` in window `s / 128` of batch `n`. -/
def G (x : (⟨3, ![8, 16384, 128]⟩ : Shape).Idx → EReal)
    (Wq : (⟨2, ![128, 128]⟩ : Shape).Idx → EReal) (bq : (⟨1, ![128]⟩ : Shape).Idx → EReal)
    (Wk : (⟨2, ![128, 128]⟩ : Shape).Idx → EReal) (bk : (⟨1, ![128]⟩ : Shape).Idx → EReal)
    (Wv : (⟨2, ![128, 128]⟩ : Shape).Idx → EReal) (bv : (⟨1, ![128]⟩ : Shape).Idx → EReal) :
    (⟨3, ![8, 16384, 128]⟩ : Shape).Idx → EReal := fun i =>
  windowAttn
    (fun w e => proj x Wq bq (i 0) (row ⟨(i 1).val / 128, by have : (i 1).val < 16384 := (i 1).isLt; omega⟩ w) e)
    (fun u e => proj x Wk bk (i 0) (row ⟨(i 1).val / 128, by have : (i 1).val < 16384 := (i 1).isLt; omega⟩ u) e)
    (fun u d => proj x Wv bv (i 0) (row ⟨(i 1).val / 128, by have : (i 1).val < 16384 := (i 1).isLt; omega⟩ u) d)
    ⟨(i 1).val % 128, Nat.mod_lt _ (by decide)⟩ (i 2)

/-- A row's maximum started from `a` is at least `a`: taking the maximum with `a` once more changes nothing. -/
theorem max_fold_self (a : EReal) (f : Fin 128 → EReal) :
    max a ((Finset.univ : Finset (Fin 128)).fold max a f) = (Finset.univ : Finset (Fin 128)).fold max a f :=
  max_eq_right ((Finset.le_fold_max a).mpr (Or.inl le_rfl))

end Cert.WindowAttention

end
-- ==== Proof.KernelPayload.lean ====
/-
  The kernel body's one stored value, read at an index.

  At a grid point the body holds a block X of 4096 rows of x (32 windows of 128 rows), the fused weight matrix
  Wf (128 × 384: the three transposed weight matrices side by side) and the fused bias row bf (1 × 384). It forms
  X · Wf + bf (4096 × 384), cuts it into its three column groups q, k, v (each 4096 × 128, recast as 32 × 128 × 128),
  and computes, window by window, softmax(q kᵀ) v. Read at row 128 j + w and column d of the block, the stored value is
  the attention of window j at (w, d) of the three row functions

      w', e ↦ Σ_k X[128 j + w', k] · Wf[k, o + e] + bf[0, o + e],      o = 0, 128, 256.

  The changes of float format in the body (to bf16 before two of the products) are the identity on extended reals.
-/
import proofs.«144813_j45097156608034_2_alg».proof.Proof.Gen.KernelIdeal.Skeleton
import proofs.«144813_j45097156608034_2_alg».proof.Proof.Spec
import Idealize.ShloMosaic.PureOps.Ideal.Laws
import Idealize.ShloMosaic.Lib.ValueIdx
import Idealize.ShloMosaic.Lib.Pipeline.Value

noncomputable section

open scoped BigOperators

namespace Cert.KernelIdeal.Payload

open Cert.KernelIdeal Cert.KernelIdeal.Gen Idealize.ShloMosaic Idealize.ShloMosaic.ValueIdx Cert.WindowAttention

/-! ## The three products' operand indices, coordinate by coordinate

  `dotP`: rows × features times features × columns (the fused projection). `dotS`: per window, query rows against key
  rows over the features (the scores). `dotO`: per window, weights against value rows over the key rows (the output). -/

abbrev dotP : DotDims S4096x128 S128x384 S4096x384 := dot_S4096x128_S128x384_S4096x384_1_0_0_1_n_n

theorem dotP_lhs0 (j : S4096x384.Idx) (q : dotP.contr.Idx) : (dotP.lhsIdx j q 0).val = (j 0).val := by
  unfold DotDims.lhsIdx
  rw [dif_neg (show ¬(0 : Fin S4096x128.rank) ∈ dotP.lhsBatch by decide), dif_pos (show (0 : Fin S4096x128.rank) ∈ dotP.lhsNonContracting by decide)]
  rfl
theorem dotP_lhs1 (j : S4096x384.Idx) (q : dotP.contr.Idx) : (dotP.lhsIdx j q 1).val = (q ⟨0, by decide⟩).val :=
  dotP.lhsIdx_val_of_single rfl j q
theorem dotP_rhs0 (j : S4096x384.Idx) (q : dotP.contr.Idx) : (dotP.rhsIdx j q 0).val = (q ⟨0, by decide⟩).val :=
  dotP.rhsIdx_val_of_single rfl j q
theorem dotP_rhs1 (j : S4096x384.Idx) (q : dotP.contr.Idx) : (dotP.rhsIdx j q 1).val = (j 1).val := by
  unfold DotDims.rhsIdx
  rw [dif_neg (show ¬(1 : Fin S128x384.rank) ∈ dotP.rhsBatch by decide), dif_pos (show (1 : Fin S128x384.rank) ∈ dotP.rhsNonContracting by decide)]
  rfl

abbrev dotS : DotDims S32x128x128 S32x128x128 S32x128x128 := dot_S32x128x128_S32x128x128_S32x128x128_2_2_1_1_0_0

theorem dotS_lhs0 (j : S32x128x128.Idx) (q : dotS.contr.Idx) : (dotS.lhsIdx j q 0).val = (j 0).val := by
  unfold DotDims.lhsIdx
  rw [dif_pos (show (0 : Fin S32x128x128.rank) ∈ dotS.lhsBatch by decide)]
  rfl
theorem dotS_lhs1 (j : S32x128x128.Idx) (q : dotS.contr.Idx) : (dotS.lhsIdx j q 1).val = (j 1).val := by
  unfold DotDims.lhsIdx
  rw [dif_neg (show ¬(1 : Fin S32x128x128.rank) ∈ dotS.lhsBatch by decide), dif_pos (show (1 : Fin S32x128x128.rank) ∈ dotS.lhsNonContracting by decide)]
  rfl
theorem dotS_lhs2 (j : S32x128x128.Idx) (q : dotS.contr.Idx) : (dotS.lhsIdx j q 2).val = (q ⟨0, by decide⟩).val :=
  dotS.lhsIdx_val_of_single rfl j q
theorem dotS_rhs0 (j : S32x128x128.Idx) (q : dotS.contr.Idx) : (dotS.rhsIdx j q 0).val = (j 0).val := by
  unfold DotDims.rhsIdx
  rw [dif_pos (show (0 : Fin S32x128x128.rank) ∈ dotS.rhsBatch by decide)]
  rfl
theorem dotS_rhs1 (j : S32x128x128.Idx) (q : dotS.contr.Idx) : (dotS.rhsIdx j q 1).val = (j 2).val := by
  unfold DotDims.rhsIdx
  rw [dif_neg (show ¬(1 : Fin S32x128x128.rank) ∈ dotS.rhsBatch by decide), dif_pos (show (1 : Fin S32x128x128.rank) ∈ dotS.rhsNonContracting by decide)]
  rfl
theorem dotS_rhs2 (j : S32x128x128.Idx) (q : dotS.contr.Idx) : (dotS.rhsIdx j q 2).val = (q ⟨0, by decide⟩).val :=
  dotS.rhsIdx_val_of_single rfl j q

abbrev dotO : DotDims S32x128x128 S32x128x128 S32x128x128 := dot_S32x128x128_S32x128x128_S32x128x128_2_1_1_2_0_0

theorem dotO_lhs0 (j : S32x128x128.Idx) (q : dotO.contr.Idx) : (dotO.lhsIdx j q 0).val = (j 0).val := by
  unfold DotDims.lhsIdx
  rw [dif_pos (show (0 : Fin S32x128x128.rank) ∈ dotO.lhsBatch by decide)]
  rfl
theorem dotO_lhs1 (j : S32x128x128.Idx) (q : dotO.contr.Idx) : (dotO.lhsIdx j q 1).val = (j 1).val := by
  unfold DotDims.lhsIdx
  rw [dif_neg (show ¬(1 : Fin S32x128x128.rank) ∈ dotO.lhsBatch by decide), dif_pos (show (1 : Fin S32x128x128.rank) ∈ dotO.lhsNonContracting by decide)]
  rfl
theorem dotO_lhs2 (j : S32x128x128.Idx) (q : dotO.contr.Idx) : (dotO.lhsIdx j q 2).val = (q ⟨0, by decide⟩).val :=
  dotO.lhsIdx_val_of_single rfl j q
theorem dotO_rhs0 (j : S32x128x128.Idx) (q : dotO.contr.Idx) : (dotO.rhsIdx j q 0).val = (j 0).val := by
  unfold DotDims.rhsIdx
  rw [dif_pos (show (0 : Fin S32x128x128.rank) ∈ dotO.rhsBatch by decide)]
  rfl
theorem dotO_rhs1 (j : S32x128x128.Idx) (q : dotO.contr.Idx) : (dotO.rhsIdx j q 1).val = (q ⟨0, by decide⟩).val :=
  dotO.rhsIdx_val_of_single rfl j q
theorem dotO_rhs2 (j : S32x128x128.Idx) (q : dotO.contr.Idx) : (dotO.rhsIdx j q 2).val = (j 2).val := by
  unfold DotDims.rhsIdx
  rw [dif_neg (show ¬(2 : Fin S32x128x128.rank) ∈ dotO.rhsBatch by decide), dif_pos (show (2 : Fin S32x128x128.rank) ∈ dotO.rhsNonContracting by decide)]
  rfl

/-- The fused projection at (r, c): the sum over the 128 features. -/
theorem dotP_apply (lhs : FVec Ideal S4096x128 .bf16) (rhs : FVec Ideal S128x384 .bf16) (r : Fin 4096) (c : Fin 384) :
    matmul dotP none lhs rhs (constant S4096x384 .f32 0x00000000#32) (ix2 r c) = ∑ k : Fin 128, lhs (ix2 r k) * rhs (ix2 k c) := by
  simp only [matmul]
  rw [Ideal.matmul_constant_zero_apply, ← Equiv.sum_comp (contrEquiv1 dotP 128 rfl rfl).symm]
  refine Finset.sum_congr rfl fun k _ => ?_
  have hk := contrEquiv1_symm_val dotP 128 rfl rfl k
  have el : dotP.lhsIdx (ix2 r c) ((contrEquiv1 dotP 128 rfl rfl).symm k) = ix2 r k := funext fun a => Fin.ext (by
    match a with
    | ⟨0, _⟩ => exact dotP_lhs0 _ _
    | ⟨1, _⟩ => exact (dotP_lhs1 _ _).trans hk)
  have er : dotP.rhsIdx (ix2 r c) ((contrEquiv1 dotP 128 rfl rfl).symm k) = ix2 k c := funext fun a => Fin.ext (by
    match a with
    | ⟨0, _⟩ => exact (dotP_rhs0 _ _).trans hk
    | ⟨1, _⟩ => exact dotP_rhs1 _ _)
  rw [el, er]

/-- The scores of window j at (w, u): the sum over the 128 features. -/
theorem dotS_apply (lhs rhs : FVec Ideal S32x128x128 .f32) (j : Fin 32) (w u : Fin 128) :
    matmul dotS (some .fp32) lhs rhs (constant S32x128x128 .f32 0x00000000#32) (ix3 j w u) = ∑ e : Fin 128, lhs (ix3 j w e) * rhs (ix3 j u e) := by
  simp only [matmul]
  rw [Ideal.matmul_constant_zero_apply, ← Equiv.sum_comp (contrEquiv1 dotS 128 rfl rfl).symm]
  refine Finset.sum_congr rfl fun k _ => ?_
  have hk := contrEquiv1_symm_val dotS 128 rfl rfl k
  have el : dotS.lhsIdx (ix3 j w u) ((contrEquiv1 dotS 128 rfl rfl).symm k) = ix3 j w k := funext fun a => Fin.ext (by
    match a with
    | ⟨0, _⟩ => exact dotS_lhs0 _ _
    | ⟨1, _⟩ => exact dotS_lhs1 _ _
    | ⟨2, _⟩ => exact (dotS_lhs2 _ _).trans hk)
  have er : dotS.rhsIdx (ix3 j w u) ((contrEquiv1 dotS 128 rfl rfl).symm k) = ix3 j u k := funext fun a => Fin.ext (by
    match a with
    | ⟨0, _⟩ => exact dotS_rhs0 _ _
    | ⟨1, _⟩ => exact dotS_rhs1 _ _
    | ⟨2, _⟩ => exact (dotS_rhs2 _ _).trans hk)
  rw [el, er]

/-- The output of window j at (w, d): the sum over the 128 key rows. -/
theorem dotO_apply (lhs rhs : FVec Ideal S32x128x128 .bf16) (j : Fin 32) (w d : Fin 128) :
    matmul dotO none lhs rhs (constant S32x128x128 .f32 0x00000000#32) (ix3 j w d) = ∑ u : Fin 128, lhs (ix3 j w u) * rhs (ix3 j u d) := by
  simp only [matmul]
  rw [Ideal.matmul_constant_zero_apply, ← Equiv.sum_comp (contrEquiv1 dotO 128 rfl rfl).symm]
  refine Finset.sum_congr rfl fun k _ => ?_
  have hk := contrEquiv1_symm_val dotO 128 rfl rfl k
  have el : dotO.lhsIdx (ix3 j w d) ((contrEquiv1 dotO 128 rfl rfl).symm k) = ix3 j w k := funext fun a => Fin.ext (by
    match a with
    | ⟨0, _⟩ => exact dotO_lhs0 _ _
    | ⟨1, _⟩ => exact dotO_lhs1 _ _
    | ⟨2, _⟩ => exact (dotO_lhs2 _ _).trans hk)
  have er : dotO.rhsIdx (ix3 j w d) ((contrEquiv1 dotO 128 rfl rfl).symm k) = ix3 j k d := funext fun a => Fin.ext (by
    match a with
    | ⟨0, _⟩ => exact dotO_rhs0 _ _
    | ⟨1, _⟩ => exact (dotO_rhs1 _ _).trans hk
    | ⟨2, _⟩ => exact dotO_rhs2 _ _)
  rw [el, er]

/-! ## The fused projection X · Wf + bf -/

/-- The body's fused projection of its three loaded blocks. -/
def fused (x0 : FVec Ideal S1x4096x128 .f32) (x1 : FVec Ideal S128x384 .bf16) (x2 : FVec Ideal S1x384 .f32) : FVec Ideal S4096x384 .f32 :=
  addf (matmul dotP none (truncf .bf16 (shapeCast S4096x128 x0 shapeCasts_S1x4096x128_S4096x128) bitsLt_bf16_f32)
      (shapeCast S128x384 x1 shapeCasts_S128x384_S128x384) (constant S4096x384 .f32 0x00000000#32))
    (broadcastTo S4096x384 (shapeCast S1x384 x2 shapeCasts_S1x384_S1x384) broadcasts_S1x384_S4096x384)

/-- Its entry at row r and column c. -/
def fusedAt (x0 : FVec Ideal S1x4096x128 .f32) (x1 : FVec Ideal S128x384 .bf16) (x2 : FVec Ideal S1x384 .f32)
    (r : Fin 4096) (c : Fin 384) : EReal :=
  (∑ k : Fin 128, x0 (ix3 (0 : Fin 1) r k) * x1 (ix2 k c)) + x2 (ix2 (0 : Fin 1) c)

theorem fused_apply (x0 : FVec Ideal S1x4096x128 .f32) (x1 : FVec Ideal S128x384 .bf16) (x2 : FVec Ideal S1x384 .f32)
    (r : Fin 4096) (c : Fin 384) : fused x0 x1 x2 (ix2 r c) = fusedAt x0 x1 x2 r c := by
  unfold fused fusedAt
  rw [addf_apply, dotP_apply]
  refine congrArg₂ (· + ·) (Finset.sum_congr rfl fun k _ => ?_) ?_
  · rw [truncf_apply, shapeCast_self]
    refine congrArg (· * _) ?_
    exact shapeCast_apply x0 shapeCasts_S1x4096x128_S4096x128 (ix2 r k) (ix3 (0 : Fin 1) r k)
      (by rw [Shape.rowMajor_val_three, Shape.rowMajor_val_two]
          show ((0 : Nat) * 4096 + r.val) * 128 + k.val = r.val * 128 + k.val; omega)
  · rw [shapeCast_self]
    exact broadcastTo_apply x2 broadcasts_S1x384_S4096x384 (ix2 r c) (ix2 (0 : Fin 1) c) (fun a => by
      match a with
      | ⟨0, _⟩ => show (0 : Nat) = if (1 : Nat) = 1 then 0 else _; rw [if_pos rfl]
      | ⟨1, _⟩ => show c.val = if (384 : Nat) = 1 then 0 else c.val; rw [if_neg (by decide)])

/-! ## A column group, recast window by window -/

/-- Row w of window j among the block's 4096 rows. -/
def rowIn (j : Fin 32) (w : Fin 128) : Fin 4096 := ⟨128 * j.val + w.val, by have := j.isLt; have := w.isLt; omega⟩

/-- Columns o … o + 127 of a 4096 × 384 matrix, as 32 windows of 128 rows. -/
def group (o : Nat) (h : S4096x384.Slices ![0, o] S4096x128) (f : FVec Ideal S4096x384 .f32) : FVec Ideal S32x128x128 .f32 :=
  shapeCast S32x128x128 (extractStridedSlice S4096x128 ![0, o] f h) shapeCasts_S4096x128_S32x128x128

theorem group_apply (o : Nat) (h : S4096x384.Slices ![0, o] S4096x128) (f : FVec Ideal S4096x384 .f32)
    (j : Fin 32) (w e : Fin 128) (c : Fin 384) (hc : c.val = o + e.val) :
    group o h f (ix3 j w e) = f (ix2 (rowIn j w) c) := by
  unfold group
  refine (shapeCast_apply _ shapeCasts_S4096x128_S32x128x128 (ix3 j w e) (ix2 (rowIn j w) e)
    (by rw [Shape.rowMajor_val_two, Shape.rowMajor_val_three]
        show (128 * j.val + w.val) * 128 + e.val = (j.val * 128 + w.val) * 128 + e.val; omega)).trans ?_
  exact extractStridedSlice_apply ![0, o] f h (ix2 (rowIn j w) e) (ix2 (rowIn j w) c) (fun a => by
    match a with
    | ⟨0, _⟩ => show (128 * j.val + w.val) = 0 + (128 * j.val + w.val); omega
    | ⟨1, _⟩ => show c.val = o + e.val; exact hc)

/-! ## One window's attention on three 32 × 128 × 128 vectors -/

/-- A per-row quantity (32 × 128) repeated along the window's 128 columns. -/
def keep (r : FVec Ideal S32x128 .f32) : FVec Ideal S32x128x128 .f32 :=
  broadcastTo S32x128x128 (shapeCast S32x128x1 r shapeCasts_S32x128_S32x128x1) broadcasts_S32x128x1_S32x128x128

theorem keep_apply (r : FVec Ideal S32x128 .f32) (j : Fin 32) (w u : Fin 128) : keep r (ix3 j w u) = r (ix2 j w) := by
  unfold keep
  refine (broadcastTo_apply _ broadcasts_S32x128x1_S32x128x128 (ix3 j w u) (ix3 j w (0 : Fin 1)) (fun a => by
    match a with
    | ⟨0, _⟩ => show j.val = if (32 : Nat) = 1 then 0 else j.val; rw [if_neg (by decide)]
    | ⟨1, _⟩ => show w.val = if (128 : Nat) = 1 then 0 else w.val; rw [if_neg (by decide)]
    | ⟨2, _⟩ => show (0 : Nat) = if (1 : Nat) = 1 then 0 else _; rw [if_pos rfl])).trans ?_
  exact shapeCast_apply r shapeCasts_S32x128_S32x128x1 (ix3 j w (0 : Fin 1)) (ix2 j w)
    (by rw [Shape.rowMajor_val_two, Shape.rowMajor_val_three]
        show j.val * 128 + w.val = (j.val * 128 + w.val) * 1 + 0; omega)

/-- A row's maximum over its 128 columns, from −∞. -/
theorem maxRow_apply (s : FVec Ideal S32x128x128 .f32) (j : Fin 32) (w : Fin 128) :
    multiReduction .maximumf [2] S32x128 s 0xFF800000#32 reduces_S32x128x128_S32x128 (.inl rfl) rfl (ix2 j w)
      = (Finset.univ : Finset (Fin 128)).fold max negInf (fun u => s (ix3 j w u)) := by
  refine (Ideal.multiReduction_maximumf_single s 0xFF800000#32 reduces_S32x128x128_S32x128 (.inl rfl) rfl (ix2 j w)).trans ?_
  exact congrArg (fun f : Fin 128 → EReal => (Finset.univ : Finset (Fin 128)).fold max negInf f)
    (funext fun u => congrArg s (funext fun a => Fin.ext (by
      match a with
      | ⟨0, _⟩ => rfl
      | ⟨1, _⟩ => rfl
      | ⟨2, _⟩ => rfl)))

/-- A row's sum over its 128 columns. -/
theorem sumRow_apply (p : FVec Ideal S32x128x128 .f32) (j : Fin 32) (w : Fin 128) :
    multiReduction .add [2] S32x128 p 0x00000000#32 reduces_S32x128x128_S32x128 (.inl rfl) rfl (ix2 j w)
      = ∑ u : Fin 128, p (ix3 j w u) := by
  refine (Ideal.multiReduction_add_single p 0x00000000#32 reduces_S32x128x128_S32x128 (.inl rfl) rfl (ix2 j w)).trans ?_
  exact Finset.sum_congr rfl fun u _ => congrArg p (funext fun a => Fin.ext (by
    match a with
    | ⟨0, _⟩ => rfl
    | ⟨1, _⟩ => rfl
    | ⟨2, _⟩ => rfl))

/-- The scores of every window. -/
def scoresV (q k : FVec Ideal S32x128x128 .f32) : FVec Ideal S32x128x128 .f32 :=
  matmul dotS (some .fp32) q k (constant S32x128x128 .f32 0x00000000#32)

/-- The exponentials of the scores less their rows' maxima. -/
def expV (s : FVec Ideal S32x128x128 .f32) : FVec Ideal S32x128x128 .f32 :=
  exp (subf s (keep (multiReduction .maximumf [2] S32x128 s 0xFF800000#32 reduces_S32x128x128_S32x128 (.inl rfl) rfl)))

/-- Each divided by its row's sum. -/
def weightsV (p : FVec Ideal S32x128x128 .f32) : FVec Ideal S32x128x128 .f32 :=
  divf p (keep (multiReduction .add [2] S32x128 p 0x00000000#32 reduces_S32x128x128_S32x128 (.inl rfl) rfl))

/-- The weighted sums of the value rows. -/
def attend (q k v : FVec Ideal S32x128x128 .f32) : FVec Ideal S32x128x128 .f32 :=
  matmul dotO none (truncf .bf16 (weightsV (expV (scoresV q k))) bitsLt_bf16_f32) (truncf .bf16 v bitsLt_bf16_f32)
    (constant S32x128x128 .f32 0x00000000#32)

theorem scoresV_apply (q k : FVec Ideal S32x128x128 .f32) (j : Fin 32) (w u : Fin 128) :
    scoresV q k (ix3 j w u) = score (fun w e => q (ix3 j w e)) (fun u e => k (ix3 j u e)) w u := by
  unfold scoresV score
  exact dotS_apply q k j w u

theorem expV_apply (q k : FVec Ideal S32x128x128 .f32) (j : Fin 32) (w u : Fin 128) :
    expV (scoresV q k) (ix3 j w u) = expScore (fun w e => q (ix3 j w e)) (fun u e => k (ix3 j u e)) w u := by
  unfold expV expScore rowMax
  show Ideal.exp (subf (scoresV q k) (keep _) (ix3 j w u)) = _
  rw [subf_apply, keep_apply, maxRow_apply, scoresV_apply]
  refine congrArg (fun m => Ideal.exp (_ - m)) ?_
  exact congrArg (fun f : Fin 128 → EReal => (Finset.univ : Finset (Fin 128)).fold max negInf f)
    (funext fun u' => scoresV_apply q k j w u')

theorem weightsV_apply (q k : FVec Ideal S32x128x128 .f32) (j : Fin 32) (w u : Fin 128) :
    weightsV (expV (scoresV q k)) (ix3 j w u) = weight (fun w e => q (ix3 j w e)) (fun u e => k (ix3 j u e)) w u := by
  unfold weightsV weight
  rw [divf_apply, keep_apply, sumRow_apply, expV_apply]
  exact congrArg (Ideal.div _) (Finset.sum_congr rfl fun u' _ => expV_apply q k j w u')

theorem attend_apply (q k v : FVec Ideal S32x128x128 .f32) (j : Fin 32) (w d : Fin 128) :
    attend q k v (ix3 j w d)
      = windowAttn (fun w e => q (ix3 j w e)) (fun u e => k (ix3 j u e)) (fun u d => v (ix3 j u d)) w d := by
  unfold attend windowAttn
  rw [dotO_apply]
  refine Finset.sum_congr rfl fun u _ => ?_
  rw [truncf_apply, truncf_apply, weightsV_apply]

/-! ## The stored value -/

/-- Column e of the query group, e of the key group, d of the value group, among the fused 384 columns. -/
def colQ (e : Fin 128) : Fin 384 := ⟨e.val, by have := e.isLt; omega⟩
def colK (e : Fin 128) : Fin 384 := ⟨128 + e.val, by have := e.isLt; omega⟩
def colV (e : Fin 128) : Fin 384 := ⟨256 + e.val, by have := e.isLt; omega⟩

/-- The body's stored value is the attention of the three column groups of the fused projection, recast to the block's shape. -/
theorem pay_eq (x0 : FVec Ideal S1x4096x128 .f32) (x1 : FVec Ideal S128x384 .bf16) (x2 : FVec Ideal S1x384 .f32) :
    k0_pay1 (F := Ideal) x0 x1 x2
      = shapeCast S1x4096x128 (shapeCast S4096x128
          (attend (group 0 slices_S4096x384_o0_0_S4096x128 (fused x0 x1 x2))
            (group 128 slices_S4096x384_o0_128_S4096x128 (fused x0 x1 x2))
            (group 256 slices_S4096x384_o0_256_S4096x128 (fused x0 x1 x2)))
          shapeCasts_S32x128x128_S4096x128) shapeCasts_S4096x128_S1x4096x128 := rfl

/-- The stored value at row 128 j + w and column d of the block: window j's attention at (w, d), the three row
    functions the fused projection's entries in the three column groups. -/
theorem pay_apply (x0 : FVec Ideal S1x4096x128 .f32) (x1 : FVec Ideal S128x384 .bf16) (x2 : FVec Ideal S1x384 .f32)
    (j : Fin 32) (w d : Fin 128) :
    k0_pay1 (F := Ideal) x0 x1 x2 (ix3 (0 : Fin 1) (rowIn j w) d)
      = windowAttn (fun w' e => fusedAt x0 x1 x2 (rowIn j w') (colQ e)) (fun u e => fusedAt x0 x1 x2 (rowIn j u) (colK e))
          (fun u d' => fusedAt x0 x1 x2 (rowIn j u) (colV d')) w d := by
  rw [pay_eq]
  refine (shapeCast_apply _ shapeCasts_S4096x128_S1x4096x128 (ix3 (0 : Fin 1) (rowIn j w) d) (ix2 (rowIn j w) d)
    (by rw [Shape.rowMajor_val_two, Shape.rowMajor_val_three]
        show (128 * j.val + w.val) * 128 + d.val = ((0 : Nat) * 4096 + (128 * j.val + w.val)) * 128 + d.val; omega)).trans ?_
  refine (shapeCast_apply _ shapeCasts_S32x128x128_S4096x128 (ix2 (rowIn j w) d) (ix3 j w d)
    (by rw [Shape.rowMajor_val_three, Shape.rowMajor_val_two]
        show (j.val * 128 + w.val) * 128 + d.val = (128 * j.val + w.val) * 128 + d.val; omega)).trans ?_
  rw [attend_apply]
  have hq : ∀ (w' e : Fin 128), group 0 slices_S4096x384_o0_0_S4096x128 (fused x0 x1 x2) (ix3 j w' e) = fusedAt x0 x1 x2 (rowIn j w') (colQ e) :=
    fun w' e => (group_apply 0 _ _ j w' e (colQ e) (by show e.val = 0 + e.val; omega)).trans (fused_apply x0 x1 x2 _ _)
  have hk : ∀ (u e : Fin 128), group 128 slices_S4096x384_o0_128_S4096x128 (fused x0 x1 x2) (ix3 j u e) = fusedAt x0 x1 x2 (rowIn j u) (colK e) :=
    fun u e => (group_apply 128 _ _ j u e (colK e) rfl).trans (fused_apply x0 x1 x2 _ _)
  have hv : ∀ (u e : Fin 128), group 256 slices_S4096x384_o0_256_S4096x128 (fused x0 x1 x2) (ix3 j u e) = fusedAt x0 x1 x2 (rowIn j u) (colV e) :=
    fun u e => (group_apply 256 _ _ j u e (colV e) rfl).trans (fused_apply x0 x1 x2 _ _)
  simp only [hq, hk, hv]

end Cert.KernelIdeal.Payload

end
-- ==== Proof.LibNary3.lean ====
/-
  A host operation with three operands named by a literal family, read at its result.
-/
import Idealize.ShloMosaic.Lib.StableHlo.Run

noncomputable section

namespace Idealize.ShloMosaic.StableHlo

open Idealize.SL.Sem

variable {τ : Topo} {sig : RefSig} {Val : EltTy → Type} {x a b y : Ref sig .tc}

/-- The result of an operation over a LITERAL family of three references (a concatenation of three operands), with
    each operand's contents taken at its own reference — `Fin.cons (F x) (Fin.cons (F a) (Fin.cons (F b) _))` in place of
    `fun k => F (![x, a, b] k)` — so that the operands' own contents can go on being rewritten: under the binder the
    reference `![x, a, b] k` is no literal, and no result lemma applies to it. The three-operand companion of the
    library's four-operand lemma. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.KernelHost.lean ====
/-
  What the region finds in the fused weight matrix and the fused bias row, entry by entry.

  Before the region, @main transposes the three 128 × 128 weight matrices, sets the transposes side by side into a
  128 × 384 matrix Wf and rounds it to bf16 (the identity on extended reals); and sets the three bias vectors end to
  end into a vector of 384 entries, recast as one row bf. So

      Wf[k, e] = W_q[e, k],   Wf[k, 128 + e] = W_k[e, k],   Wf[k, 256 + e] = W_v[e, k],
      bf[0, e] = b_q[e],      bf[0, 128 + e] = b_k[e],      bf[0, 256 + e] = b_v[e]           (k, e < 128).
-/
import proofs.«144813_j45097156608034_2_alg».proof.Proof.KernelIdealFrame
import proofs.«144813_j45097156608034_2_alg».proof.Proof.KernelPayload
import proofs.«144813_j45097156608034_2_alg».proof.Proof.LibNary3
import Idealize.ShloMosaic.Lib.StableHlo.Run
import Idealize.ShloMosaic.Lib.Pipeline.Value
import Idealize.ShloMosaic.Lib.ValueIdx

noncomputable section

namespace Cert.KernelIdeal.Host

open Cert.KernelIdeal Cert.KernelIdeal.Gen Cert.KernelIdeal.Frame Cert.KernelIdeal.Payload
open Idealize.ShloMosaic Idealize.ShloMosaic.TcCoe Idealize.SL.Sem Idealize.ShloMosaic.StableHlo Idealize.ShloMosaic.ValueIdx

variable (m : (ℓ : Loc nD τ sig) → Buf (Elt Ideal) ℓ)

/-- Each host operation's result at its own result buffer is its function's value, at any other buffer what was there;
    an operation over three operands is read with each operand at its own buffer. -/
macro "host_results" : tactic =>
  `(tactic| (simp only [after_cons, after_nil]
             repeat (first
               | rw [nary3_result] | rw [unary_result] | rw [reshape_result]
               | (rw [unary_result_ne]; rotate_left; decide)
               | (rw [reshape_result_ne]; rotate_left; decide)
               | (rw [nary_result_ne]; rotate_left; decide))))

/-! ## Three pieces side by side, read in each piece -/

/-- Three 128 × 128 matrices set side by side along the columns: column `o + e` of the result is column `e` of the piece
    that starts at column `o`. -/
theorem cols_apply (A B C : S128x128.Idx → EReal) (k e : Fin 128) :
    concatenate S128x384 1 [⟨S128x128, A⟩, ⟨S128x128, B⟩, ⟨S128x128, C⟩] concatenates_S128x128_S128x128_S128x128_S128x384_d1 (ix2 k (colQ e)) = A (ix2 k e)
    ∧ concatenate S128x384 1 [⟨S128x128, A⟩, ⟨S128x128, B⟩, ⟨S128x128, C⟩] concatenates_S128x128_S128x128_S128x128_S128x384_d1 (ix2 k (colK e)) = B (ix2 k e)
    ∧ concatenate S128x384 1 [⟨S128x128, A⟩, ⟨S128x128, B⟩, ⟨S128x128, C⟩] concatenates_S128x128_S128x128_S128x128_S128x384_d1 (ix2 k (colV e)) = C (ix2 k e) := by
  refine ⟨?_, ?_, ?_⟩
  · exact concatenate_apply_piece (1 : Fin S128x384.rank) _ _ (ix2 k (colQ e)) 0 (by show (0 : Nat) < 3; decide) S128x128 A rfl rfl 0 rfl (ix2 k e)
      (fun b hb => by match b with | ⟨0, _⟩ => rfl | ⟨1, _⟩ => exact absurd rfl hb) (by show 0 + e.val = e.val; omega)
  · exact concatenate_apply_piece (1 : Fin S128x384.rank) _ _ (ix2 k (colK e)) 1 (by show (1 : Nat) < 3; decide) S128x128 B rfl rfl 128 rfl (ix2 k e)
      (fun b hb => by match b with | ⟨0, _⟩ => rfl | ⟨1, _⟩ => exact absurd rfl hb) rfl
  · exact concatenate_apply_piece (1 : Fin S128x384.rank) _ _ (ix2 k (colV e)) 2 (by show (2 : Nat) < 3; decide) S128x128 C rfl rfl 256 rfl (ix2 k e)
      (fun b hb => by match b with | ⟨0, _⟩ => rfl | ⟨1, _⟩ => exact absurd rfl hb) rfl

/-- Three vectors of 128 entries set end to end. -/
theorem ends_apply (A B C : S128.Idx → EReal) (e : Fin 128) :
    concatenate S384 0 [⟨S128, A⟩, ⟨S128, B⟩, ⟨S128, C⟩] concatenates_S128_S128_S128_S384_d0 (ix1 (colQ e)) = A (ix1 e)
    ∧ concatenate S384 0 [⟨S128, A⟩, ⟨S128, B⟩, ⟨S128, C⟩] concatenates_S128_S128_S128_S384_d0 (ix1 (colK e)) = B (ix1 e)
    ∧ concatenate S384 0 [⟨S128, A⟩, ⟨S128, B⟩, ⟨S128, C⟩] concatenates_S128_S128_S128_S384_d0 (ix1 (colV e)) = C (ix1 e) := by
  refine ⟨?_, ?_, ?_⟩
  · exact concatenate_apply_piece (0 : Fin S384.rank) _ _ (ix1 (colQ e)) 0 (by show (0 : Nat) < 3; decide) S128 A rfl rfl 0 rfl (ix1 e)
      (fun b hb => by match b with | ⟨0, _⟩ => exact absurd rfl hb) (by show 0 + e.val = e.val; omega)
  · exact concatenate_apply_piece (0 : Fin S384.rank) _ _ (ix1 (colK e)) 1 (by show (1 : Nat) < 3; decide) S128 B rfl rfl 128 rfl (ix1 e)
      (fun b hb => by match b with | ⟨0, _⟩ => exact absurd rfl hb) rfl
  · exact concatenate_apply_piece (0 : Fin S384.rank) _ _ (ix1 (colV e)) 2 (by show (2 : Nat) < 3; decide) S128 C rfl rfl 256 rfl (ix1 e)
      (fun b hb => by match b with | ⟨0, _⟩ => exact absurd rfl hb) rfl

/-- A transposed 128 × 128 matrix at (k, e) is the matrix at (e, k). -/
theorem transpose_at (A : S128x128.Idx → EReal) (k e : Fin 128) :
    transpose S128x128 [1, 0] A transposes_S128x128_S128x128_1_0 (ix2 k e) = A (ix2 e k) :=
  transpose_apply [1, 0] A transposes_S128x128_S128x128_1_0 (ix2 k e) (ix2 e k) (fun b => by
    match b with
    | ⟨0, _⟩ => rfl
    | ⟨1, _⟩ => rfl)

/-! ## The two buffers the host operations write and the region stages -/

/-- The fused weight matrix as the region finds it. -/
theorem V_fusedW (c : Dev nD) :
    (V m c main_v4 : S128x384.Idx → EReal)
      = truncf (F := Ideal) .bf16 (concatenate S128x384 1
          [⟨S128x128, transpose S128x128 [1, 0] (m ((c : Thread nD τ).loc main_arg1) : S128x128.Idx → EReal) transposes_S128x128_S128x128_1_0⟩,
           ⟨S128x128, transpose S128x128 [1, 0] (m ((c : Thread nD τ).loc main_arg3) : S128x128.Idx → EReal) transposes_S128x128_S128x128_1_0⟩,
           ⟨S128x128, transpose S128x128 [1, 0] (m ((c : Thread nD τ).loc main_arg5) : S128x128.Idx → EReal) transposes_S128x128_S128x128_1_0⟩]
          concatenates_S128x128_S128x128_S128x128_S128x384_d1) bitsLt_bf16_f32 := by
  dsimp only [V, hostOps0]
  host_results
  rfl

/-- The fused bias row as the region finds it. -/
theorem V_fusedB (c : Dev nD) :
    (V m c main_v6 : S1x384.Idx → EReal)
      = shapeCast S1x384 (concatenate S384 0
          [⟨S128, (m ((c : Thread nD τ).loc main_arg2) : S128.Idx → EReal)⟩, ⟨S128, (m ((c : Thread nD τ).loc main_arg4) : S128.Idx → EReal)⟩,
           ⟨S128, (m ((c : Thread nD τ).loc main_arg6) : S128.Idx → EReal)⟩]
          concatenates_S128_S128_S128_S384_d0) shapeCasts_S384_S1x384 := by
  dsimp only [V, hostOps0]
  host_results
  rfl

/-- The fused weight matrix entry by entry. -/
theorem fusedW_at (c : Dev nD) (k e : Fin 128) :
    (V m c main_v4 : S128x384.Idx → EReal) (ix2 k (colQ e)) = (m ((c : Thread nD τ).loc main_arg1) : S128x128.Idx → EReal) (ix2 e k)
    ∧ (V m c main_v4 : S128x384.Idx → EReal) (ix2 k (colK e)) = (m ((c : Thread nD τ).loc main_arg3) : S128x128.Idx → EReal) (ix2 e k)
    ∧ (V m c main_v4 : S128x384.Idx → EReal) (ix2 k (colV e)) = (m ((c : Thread nD τ).loc main_arg5) : S128x128.Idx → EReal) (ix2 e k) := by
  rw [V_fusedW]
  obtain ⟨h0, h1, h2⟩ := cols_apply
    (transpose S128x128 [1, 0] (m ((c : Thread nD τ).loc main_arg1)) transposes_S128x128_S128x128_1_0)
    (transpose S128x128 [1, 0] (m ((c : Thread nD τ).loc main_arg3)) transposes_S128x128_S128x128_1_0)
    (transpose S128x128 [1, 0] (m ((c : Thread nD τ).loc main_arg5)) transposes_S128x128_S128x128_1_0) k e
  refine ⟨?_, ?_, ?_⟩
  · rw [truncf_apply]; exact h0.trans (transpose_at _ k e)
  · rw [truncf_apply]; exact h1.trans (transpose_at _ k e)
  · rw [truncf_apply]; exact h2.trans (transpose_at _ k e)

/-- A vector of 384 entries recast as one row: entry (0, c) is entry c. -/
theorem oneRow_at (A : S384.Idx → EReal) (cc : Fin 384) :
    shapeCast S1x384 A shapeCasts_S384_S1x384 (ix2 (0 : Fin 1) cc) = A (ix1 cc) :=
  shapeCast_apply A shapeCasts_S384_S1x384 (ix2 (0 : Fin 1) cc) (ix1 cc)
    (by rw [Shape.rowMajor_val_one, Shape.rowMajor_val_two]; show cc.val = (0 : Nat) * 384 + cc.val; omega)

/-- The fused bias row entry by entry. -/
theorem fusedB_at (c : Dev nD) (e : Fin 128) :
    (V m c main_v6 : S1x384.Idx → EReal) (ix2 (0 : Fin 1) (colQ e)) = (m ((c : Thread nD τ).loc main_arg2) : S128.Idx → EReal) (ix1 e)
    ∧ (V m c main_v6 : S1x384.Idx → EReal) (ix2 (0 : Fin 1) (colK e)) = (m ((c : Thread nD τ).loc main_arg4) : S128.Idx → EReal) (ix1 e)
    ∧ (V m c main_v6 : S1x384.Idx → EReal) (ix2 (0 : Fin 1) (colV e)) = (m ((c : Thread nD τ).loc main_arg6) : S128.Idx → EReal) (ix1 e) := by
  rw [V_fusedB]
  obtain ⟨h0, h1, h2⟩ := ends_apply (m ((c : Thread nD τ).loc main_arg2)) (m ((c : Thread nD τ).loc main_arg4)) (m ((c : Thread nD τ).loc main_arg6)) e
  exact ⟨(oneRow_at _ _).trans h0, (oneRow_at _ _).trans h1, (oneRow_at _ _).trans h2⟩

end Cert.KernelIdeal.Host

end
-- ==== Proof.SpecRows.lean ====
/-
  The specification read at an index given by its window and its row in the window.
-/
import proofs.«144813_j45097156608034_2_alg».proof.Proof.Spec

noncomputable section

namespace Cert.WindowAttention

open Idealize.ShloMosaic Idealize.ShloMosaic.ValueIdx

/-- Row 128 p + w lies in window p … -/
theorem row_div (p w : Fin 128) : (row p w).val / 128 = p.val := by
  show (128 * p.val + w.val) / 128 = p.val
  have := w.isLt; omega

/-- … at offset w. -/
theorem row_mod (p w : Fin 128) : (row p w).val % 128 = w.val := by
  show (128 * p.val + w.val) % 128 = w.val
  have := w.isLt; omega

/-- At batch n, row w of window p and feature d, the result is window p's attention at (w, d). -/
theorem G_apply (x : (⟨3, ![8, 16384, 128]⟩ : Shape).Idx → EReal)
    (Wq : (⟨2, ![128, 128]⟩ : Shape).Idx → EReal) (bq : (⟨1, ![128]⟩ : Shape).Idx → EReal)
    (Wk : (⟨2, ![128, 128]⟩ : Shape).Idx → EReal) (bk : (⟨1, ![128]⟩ : Shape).Idx → EReal)
    (Wv : (⟨2, ![128, 128]⟩ : Shape).Idx → EReal) (bv : (⟨1, ![128]⟩ : Shape).Idx → EReal)
    (n : Fin 8) (p w d : Fin 128) :
    G x Wq bq Wk bk Wv bv (ix3 n (row p w) d)
      = windowAttn (fun w' e => proj x Wq bq n (row p w') e) (fun u e => proj x Wk bk n (row p u) e)
          (fun u d' => proj x Wv bv n (row p u) d') w d := by
  have hp : (⟨(row p w).val / 128, by have : (row p w).val < 16384 := (row p w).isLt; omega⟩ : Fin 128) = p :=
    Fin.ext (row_div p w)
  have hw : (⟨(row p w).val % 128, Nat.mod_lt _ (by decide)⟩ : Fin 128) = w := Fin.ext (row_mod p w)
  show windowAttn
      (fun w' e => proj x Wq bq n (row ⟨(row p w).val / 128, _⟩ w') e)
      (fun u e => proj x Wk bk n (row ⟨(row p w).val / 128, _⟩ u) e)
      (fun u d' => proj x Wv bv n (row ⟨(row p w).val / 128, _⟩ u) d')
      ⟨(row p w).val % 128, _⟩ d = _
  rw [hp, hw]

end Cert.WindowAttention

end
-- ==== Proof.KernelValue.lean ====
/-
  The result array after the run is the specified function of the argument arrays.

  At the grid point (n, b) the region writes back block (n, b, 0) of the result: rows 4096 b … 4096 b + 4095 of batch n,
  all 128 features. The value stored there at row 128 j + w of the block is window j's attention of the block of x
  the region fetched at the same point, that is of rows 128 (32 b + j) + w' of batch n: window 32 b + j of the batch.
  The 8 × 4 blocks tile the array (row s of batch n lies in the block of point (n, s / 4096)), so the array ends
  holding the specified function everywhere.
-/
import proofs.«144813_j45097156608034_2_alg».proof.Proof.KernelIdealFrame
import proofs.«144813_j45097156608034_2_alg».proof.Proof.KernelPayload
import proofs.«144813_j45097156608034_2_alg».proof.Proof.KernelHost
import proofs.«144813_j45097156608034_2_alg».proof.Proof.SpecRows
import Idealize.ShloMosaic.Lib.Pipeline.Value

set_option maxRecDepth 16384

noncomputable section

namespace Cert.KernelIdeal.Result

open Cert.KernelIdeal Cert.KernelIdeal.Gen Cert.KernelIdeal.Frame Cert.KernelIdeal.Payload Cert.KernelIdeal.Host Cert.WindowAttention
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The specified result of the argument arrays on core `c`. -/
abbrev spec (c : Dev nD) : S8x16384x128.Idx → EReal := G (m ((c : Thread nD τ).loc main_arg0) : S8x16384x128.Idx → EReal) (m ((c : Thread nD τ).loc main_arg1) : S128x128.Idx → EReal) (m ((c : Thread nD τ).loc main_arg2) : S128.Idx → EReal) (m ((c : Thread nD τ).loc main_arg3) : S128x128.Idx → EReal) (m ((c : Thread nD τ).loc main_arg4) : S128.Idx → EReal) (m ((c : Thread nD τ).loc main_arg5) : S128x128.Idx → EReal) (m ((c : Thread nD τ).loc main_arg6) : S128.Idx → EReal)

/-! ## The index maps over the grid -/

/-- The block of x moves with the block of the result; both last block coordinates are 0; the first is a batch
    (below 8), the second one of the batch's four row blocks; the weight matrix's and the bias row's blocks never move. -/
theorem index_facts : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_3.index t (0 : Fin 3) < 8 ∧ win0_3.index t (1 : Fin 3) < 4
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Every block of the result is some point's. -/
theorem index_onto : ∀ (q0 : Fin 8) (q1 : Fin 4), ∃ t : Fin cfg0.N, win0_3.index t = ![q0.val, q1.val, 0] :=
  (by decide +kernel : ∀ (q0 : Fin 8) (q1 : Fin 4), ∃ t : Fin grid0.N, win0_3.index t = ![q0.val, q1.val, 0])

/-! ## The input blocks as entries of the arrays -/

/-- The block of x at a point: row r of the block is row (block row index) · 4096 + r of batch (block batch index). -/
theorem xblock_at (c : Dev nD) (t : Fin cfg0.N) (r : Fin 4096) (k : Fin 128) (n : Fin 8) (s : Fin 16384)
    (hn : n.val = win0_3.index t (0 : Fin 3)) (hs : s.val = win0_3.index t (1 : Fin 3) * 4096 + r.val) :
    (iblk m c 0 t : S1x4096x128.Idx → EReal) (ix3 (0 : Fin 1) r k) = (m ((c : Thread nD τ).loc main_arg0) : S8x16384x128.Idx → EReal) (ix3 n s k) := by
  obtain ⟨e0, e1, e2, -⟩ := index_facts t
  unfold iblk
  rw [View.read_apply]
  show V m c main_arg0 _ = _
  rw [V_main_arg0]
  refine congrArg _ (funext fun a => Fin.ext ?_)
  match a with
  | ⟨0, _⟩ => show win0_0.index t (0 : Fin 3) * 1 + 1 * 0 = n.val; omega
  | ⟨1, _⟩ => show win0_0.index t (1 : Fin 3) * 4096 + 1 * r.val = s.val; omega
  | ⟨2, _⟩ => show win0_0.index t (2 : Fin 3) * 128 + 1 * k.val = k.val; omega

/-- The weight block at every point is the whole fused weight matrix. -/
theorem wblock_at (c : Dev nD) (t : Fin cfg0.N) (k : Fin 128) (cc : Fin 384) :
    (iblk m c 1 t : S128x384.Idx → EReal) (ix2 k cc) = (V m c main_v4 : S128x384.Idx → EReal) (ix2 k cc) := by
  obtain ⟨-, -, -, -, -, -, e6, e7, -⟩ := index_facts t
  unfold iblk
  rw [View.read_apply]
  show V m c main_v4 _ = _
  refine congrArg _ (funext fun a => Fin.ext ?_)
  match a with
  | ⟨0, _⟩ => show win0_1.index t (0 : Fin 2) * 128 + 1 * k.val = k.val; omega
  | ⟨1, _⟩ => show win0_1.index t (1 : Fin 2) * 384 + 1 * cc.val = cc.val; omega

/-- The bias block at every point is the whole fused bias row. -/
theorem bblock_at (c : Dev nD) (t : Fin cfg0.N) (cc : Fin 384) :
    (iblk m c 2 t : S1x384.Idx → EReal) (ix2 (0 : Fin 1) cc) = (V m c main_v6 : S1x384.Idx → EReal) (ix2 (0 : Fin 1) cc) := by
  obtain ⟨-, -, -, -, -, -, -, -, e8, e9⟩ := index_facts t
  unfold iblk
  rw [View.read_apply]
  show V m c main_v6 _ = _
  refine congrArg _ (funext fun a => Fin.ext ?_)
  match a with
  | ⟨0, _⟩ => show win0_2.index t (0 : Fin 2) * 1 + 1 * 0 = 0; omega
  | ⟨1, _⟩ => show win0_2.index t (1 : Fin 2) * 384 + 1 * cc.val = cc.val; omega

/-! ## What a point writes back -/

/-- Every index of a block is row 128 j + w of the block, for a window j of the block's 32 and a row w of its 128. -/
theorem split_row (y : S1x4096x128.Idx) : ∃ (j : Fin 32) (w d : Fin 128), y = ix3 (0 : Fin 1) (rowIn j w) d :=
  ⟨⟨(y 1).val / 128, by have : (y 1).val < 4096 := (y 1).isLt; omega⟩, ⟨(y 1).val % 128, Nat.mod_lt _ (by decide)⟩, y 2,
    funext fun a => Fin.ext (by
      match a with
      | ⟨0, _⟩ => show (y 0).val = 0; have : (y 0).val < 1 := (y 0).isLt; omega
      | ⟨1, _⟩ => show (y 1).val = 128 * ((y 1).val / 128) + (y 1).val % 128; omega
      | ⟨2, _⟩ => rfl)⟩

/-- The three row functions of window j of the block at point t are the specification's of window 32 b + j of batch n. -/
theorem rows_eq (c : Dev nD) (t : Fin cfg0.N) (j : Fin 32) (n : Fin 8) (p : Fin 128)
    (hn : n.val = win0_3.index t (0 : Fin 3)) (hp : p.val = 32 * win0_3.index t (1 : Fin 3) + j.val) :
    (fun w' e => fusedAt (iblk m c 0 t) (iblk m c 1 t) (iblk m c 2 t) (rowIn j w') (colQ e))
        = (fun w' e => proj (m ((c : Thread nD τ).loc main_arg0) : S8x16384x128.Idx → EReal) (m ((c : Thread nD τ).loc main_arg1) : S128x128.Idx → EReal) (m ((c : Thread nD τ).loc main_arg2) : S128.Idx → EReal) n (row p w') e)
    ∧ (fun u e => fusedAt (iblk m c 0 t) (iblk m c 1 t) (iblk m c 2 t) (rowIn j u) (colK e))
        = (fun u e => proj (m ((c : Thread nD τ).loc main_arg0) : S8x16384x128.Idx → EReal) (m ((c : Thread nD τ).loc main_arg3) : S128x128.Idx → EReal) (m ((c : Thread nD τ).loc main_arg4) : S128.Idx → EReal) n (row p u) e)
    ∧ (fun u d' => fusedAt (iblk m c 0 t) (iblk m c 1 t) (iblk m c 2 t) (rowIn j u) (colV d'))
        = (fun u d' => proj (m ((c : Thread nD τ).loc main_arg0) : S8x16384x128.Idx → EReal) (m ((c : Thread nD τ).loc main_arg5) : S128x128.Idx → EReal) (m ((c : Thread nD τ).loc main_arg6) : S128.Idx → EReal) n (row p u) d') := by
  have hx : ∀ (w' k : Fin 128), (iblk m c 0 t : S1x4096x128.Idx → EReal) (ix3 (0 : Fin 1) (rowIn j w') k) = (m ((c : Thread nD τ).loc main_arg0) : S8x16384x128.Idx → EReal) (ix3 n (row p w') k) :=
    fun w' k => xblock_at m c t (rowIn j w') k n (row p w') hn (by
      show 128 * p.val + w'.val = win0_3.index t (1 : Fin 3) * 4096 + (128 * j.val + w'.val); omega)
  refine ⟨funext fun w' => funext fun e => ?_, funext fun w' => funext fun e => ?_, funext fun w' => funext fun e => ?_⟩
  · unfold fusedAt proj
    refine congrArg₂ (· + ·) (Finset.sum_congr rfl fun k _ => congrArg₂ (· * ·) (hx w' k) ?_) ?_
    · exact (wblock_at m c t k (colQ e)).trans (fusedW_at m c k e).1
    · exact (bblock_at m c t (colQ e)).trans (fusedB_at m c e).1
  · unfold fusedAt proj
    refine congrArg₂ (· + ·) (Finset.sum_congr rfl fun k _ => congrArg₂ (· * ·) (hx w' k) ?_) ?_
    · exact (wblock_at m c t k (colK e)).trans (fusedW_at m c k e).2.1
    · exact (bblock_at m c t (colK e)).trans (fusedB_at m c e).2.1
  · unfold fusedAt proj
    refine congrArg₂ (· + ·) (Finset.sum_congr rfl fun k _ => congrArg₂ (· * ·) (hx w' k) ?_) ?_
    · exact (wblock_at m c t k (colV e)).trans (fusedW_at m c k e).2.2
    · exact (bblock_at m c t (colV e)).trans (fusedB_at m c e).2.2

/-- What point t writes back is block t of the specified result. -/
theorem flushed_eq (c : Dev nD) (t : Fin cfg0.N) :
    (dats m 0 c).flushed 3 t = ((cfg0.win 3).blk t).view.read (Elt Ideal) (spec m c) := by
  show (cfg0.win 3).cut (grid0.coords t) ((dats m 0 c).after 3 t) = _
  rw [after0_3]
  unfold out0_3
  rw [View.canon_unit_zero zero3]
  simp only [View.ld_unit_zero (S := S1x4096x128) zero3, View.ld_unit_zero (S := S128x384) zero2, View.ld_unit_zero (S := S1x384) zero2]
  funext y
  obtain ⟨j, w, d, rfl⟩ := split_row y
  refine (pay_apply (iblk m c 0 t) (iblk m c 1 t) (iblk m c 2 t) j w d).trans ?_
  obtain ⟨-, -, -, e3, h8, h4, -⟩ := index_facts t
  rw [View.read_apply]
  have hemb : ((cfg0.win 3).blk t).view.emb (ix3 (0 : Fin 1) (rowIn j w) d)
      = ix3 (⟨win0_3.index t (0 : Fin 3), h8⟩ : Fin 8) (row (⟨32 * win0_3.index t (1 : Fin 3) + j.val, by have := j.isLt; omega⟩ : Fin 128) w) d :=
    funext fun a => Fin.ext (by
      match a with
      | ⟨0, _⟩ => show win0_3.index t (0 : Fin 3) * 1 + 1 * 0 = win0_3.index t (0 : Fin 3); omega
      | ⟨1, _⟩ => show win0_3.index t (1 : Fin 3) * 4096 + 1 * (128 * j.val + w.val) = 128 * (32 * win0_3.index t (1 : Fin 3) + j.val) + w.val; omega
      | ⟨2, _⟩ => show win0_3.index t (2 : Fin 3) * 128 + 1 * d.val = d.val; omega)
  rw [hemb]
  unfold spec
  rw [G_apply]
  obtain ⟨hq, hk, hv⟩ := rows_eq m c t j ⟨win0_3.index t (0 : Fin 3), h8⟩ ⟨32 * win0_3.index t (1 : Fin 3) + j.val, by have := j.isLt; omega⟩ rfl rfl
  rw [hq, hk, hv]
  rfl

/-! ## The cover and the array -/

/-- An index of the array is in point t's block iff each coordinate is in the block's range on its axis. -/
theorem mem_block (t : Fin cfg0.N) (i : S8x16384x128.Idx) :
    i ∈ ((cfg0.win 3).blk t).view.set ↔ ∀ a : Fin 3, win0_3.index t a * S1x4096x128.size a ≤ (i a).val
      ∧ (i a).val < win0_3.index t a * S1x4096x128.size a + S1x4096x128.size a := by
  show i ∈ ((View.whole main_v7).slice (win0_3.rect t)).set ↔ _
  rw [View.set_slice_whole, Rect.mem_set_unit]
  exact Iff.rfl

/-- Row s of batch n lies in the block written back at the point with block index (n, s / 4096, 0). -/
theorem covered (i : S8x16384x128.Idx) : ∃ t : Fin cfg0.N, (cfg0.win 3).flush t = true ∧ i ∈ ((cfg0.win 3).blk t).view.set := by
  have h0 : (i 0).val < 8 := (i 0).isLt
  have h1 : (i 1).val < 16384 := (i 1).isLt
  have h2 : (i 2).val < 128 := (i 2).isLt
  obtain ⟨t, ht⟩ := index_onto ⟨(i 0).val, h0⟩ ⟨(i 1).val / 4096, by omega⟩
  have q0 : win0_3.index t (0 : Fin 3) = (i 0).val := congrFun ht 0
  have q1 : win0_3.index t (1 : Fin 3) = (i 1).val / 4096 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 4096 ≤ (i 1).val ∧ (i 1).val < win0_3.index t (1 : Fin 3) * 4096 + 4096; omega
  | ⟨2, _⟩ => show win0_3.index t (2 : Fin 3) * 128 ≤ (i 2).val ∧ (i 2).val < win0_3.index t (2 : Fin 3) * 128 + 128; omega

/-- The result array after the last write-back is the specified result. -/
theorem final (c : Dev nD) : (dats m 0 c).arrAt 3 cfg0.N = spec m c :=
  (dats m 0 c).arrAt_eq_of_cover 3 (spec m c) (fun t _ => flushed_eq m c t) covered

/-! ## The run, read -/

/-- Every weakly fair execution of @main terminates with the result array at the specified result and the argument
    arrays unchanged. -/
theorem run : θ_run defs (onTc (τ := τ) (main (F := Ideal))) ⟨m, fun _ => 0, ρ⟩ fun r => ∀ c : Dev nD,
      r.2.mem ((c.tc : Thread nD τ).loc main_v7) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.KernelIdeal.Result

end
-- ==== Proof.RefValue.lean ====
/-
  The reference program computes the specified windowed attention.

  The program reshapes the input to 8 × 128 × 128 × 128 (batch, window, row, feature), forms the three projections,
  the scores, the row maxima (a fold of max from −∞, then once more a maximum with −∞), the exponentials, their row
  sums (from the f32 zero), the quotients and the weighted sum of the value rows, and reshapes back. Each stage is read
  at an index `(n, p, w, ·)` and identified with the specification's definition of the same name; no algebraic law is
  used beyond `max a (fold max a f) = fold max a f` and `0 + s = s`. The index arithmetic of the two reshapes is
  `s = 128 p + w`, `p = s / 128`, `w = s mod 128`.
-/
import proofs.«144813_j45097156608034_2_alg».proof.Proof.Gen.ReferenceIdeal.Read
import proofs.«144813_j45097156608034_2_alg».proof.Proof.Spec
import Idealize.ShloMosaic.PureOps.Ideal.Laws
import Idealize.ShloMosaic.Lib.ValueIdx
import Idealize.ShloMosaic.Lib.Pipeline.Value

noncomputable section

open scoped BigOperators

namespace Cert.ReferenceIdeal.RefValue

open Cert.ReferenceIdeal Cert.ReferenceIdeal.Gen Cert.ReferenceIdeal.Read Cert.WindowAttention
open Idealize.ShloMosaic Idealize.ShloMosaic.ValueIdx

/-! ## The three projections -/

/-- The input seen as 8 × 128 × 128 × 128: row `w` of window `p` is row `128 p + w` of its batch. -/
theorem v0_at (x0 : (⟨S8x16384x128, .f32⟩ : BufTy).Contents (Elt Ideal)) (n : Fin 8) (p w k : Fin 128) :
    val_main_v0 (F := Ideal) x0 (ix4 n p w k) = x0 (ix3 n (row p w) k) := by
  rw [val_main_v0_apply]
  refine congrArg x0 (funext fun a => Fin.ext ?_)
  have hn := n.isLt; have hp := p.isLt; have hw := w.isLt; have hk := k.isLt
  match a with
  | ⟨0, _⟩ => show (((n.val * 128 + p.val) * 128 + w.val) * 128 + k.val) / 2097152 = n.val; omega
  | ⟨1, _⟩ => show (((n.val * 128 + p.val) * 128 + w.val) * 128 + k.val) / 128 % 16384 = 128 * p.val + w.val; omega
  | ⟨2, _⟩ => show (((n.val * 128 + p.val) * 128 + w.val) * 128 + k.val) % 128 = k.val; omega

/-- A projection of the reshaped input, read at an entry: entry `e` of `W x_s + b` for the row `s = 128 p + w`. -/
theorem v4_at (x0 : (⟨S8x16384x128, .f32⟩ : BufTy).Contents (Elt Ideal)) (x1 : (⟨S128x128, .f32⟩ : BufTy).Contents (Elt Ideal))
    (x2 : (⟨S128, .f32⟩ : BufTy).Contents (Elt Ideal)) (n : Fin 8) (p w e : Fin 128) :
    val_main_v4 (F := Ideal) x0 x1 x2 (ix4 n p w e) = proj x0 x1 x2 n (row p w) e := by
  have hl : ∀ k : Fin 128, lidx_main_v1 (ix4 n p w e) k = ix4 n p w k := fun k => funext fun a =>
    match a with | ⟨0, _⟩ => rfl | ⟨1, _⟩ => rfl | ⟨2, _⟩ => rfl | ⟨3, _⟩ => rfl
  have hr : ∀ k : Fin 128, ridx_main_v1 (ix4 n p w e) k = ix2 e k := fun k => funext fun a =>
    match a with | ⟨0, _⟩ => rfl | ⟨1, _⟩ => rfl
  have hb : idx_main_v2 (idx_main_v3 (ix4 n p w e)) = ix1 e := funext fun a =>
    match a with | ⟨0, _⟩ => rfl
  rw [val_main_v4_apply, val_main_v1_apply, val_main_v3_apply, val_main_v2_apply, hb]
  unfold proj
  refine congrArg (· + x2 (ix1 e)) (Finset.sum_congr rfl fun k _ => ?_)
  rw [hl, hr, v0_at]

theorem v8_at (x0 : (⟨S8x16384x128, .f32⟩ : BufTy).Contents (Elt Ideal)) (x3 : (⟨S128x128, .f32⟩ : BufTy).Contents (Elt Ideal))
    (x4 : (⟨S128, .f32⟩ : BufTy).Contents (Elt Ideal)) (n : Fin 8) (p w e : Fin 128) :
    val_main_v8 (F := Ideal) x0 x3 x4 (ix4 n p w e) = proj x0 x3 x4 n (row p w) e := v4_at x0 x3 x4 n p w e

theorem v12_at (x0 : (⟨S8x16384x128, .f32⟩ : BufTy).Contents (Elt Ideal)) (x5 : (⟨S128x128, .f32⟩ : BufTy).Contents (Elt Ideal))
    (x6 : (⟨S128, .f32⟩ : BufTy).Contents (Elt Ideal)) (n : Fin 8) (p w e : Fin 128) :
    val_main_v12 (F := Ideal) x0 x5 x6 (ix4 n p w e) = proj x0 x5 x6 n (row p w) e := v4_at x0 x5 x6 n p w e

/-! ## One window

Throughout, `n` is the batch and `p` the window; the window's queries, keys and values are the three projections
read at `(n, p, ·, ·)`. -/

/-- The scores: entry `(w, u)` is the inner product of query row `w` and key row `u`. -/
theorem v13_at (x0 : (⟨S8x16384x128, .f32⟩ : BufTy).Contents (Elt Ideal)) (x1 : (⟨S128x128, .f32⟩ : BufTy).Contents (Elt Ideal)) (x2 : (⟨S128, .f32⟩ : BufTy).Contents (Elt Ideal))
    (x3 : (⟨S128x128, .f32⟩ : BufTy).Contents (Elt Ideal)) (x4 : (⟨S128, .f32⟩ : BufTy).Contents (Elt Ideal)) (n : Fin 8) (p w u : Fin 128) :
    val_main_v13 (F := Ideal) x0 x1 x2 x3 x4 (ix4 n p w u) = score (fun w e => val_main_v4 (F := Ideal) x0 x1 x2 (ix4 n p w e)) (fun u e => val_main_v8 (F := Ideal) x0 x3 x4 (ix4 n p u e)) w u := by
  have hl : ∀ k : Fin 128, lidx_main_v13 (ix4 n p w u) k = ix4 n p w k := fun k => funext fun a =>
    match a with | ⟨0, _⟩ => rfl | ⟨1, _⟩ => rfl | ⟨2, _⟩ => rfl | ⟨3, _⟩ => rfl
  have hr : ∀ k : Fin 128, ridx_main_v13 (ix4 n p w u) k = ix4 n p u k := fun k => funext fun a =>
    match a with | ⟨0, _⟩ => rfl | ⟨1, _⟩ => rfl | ⟨2, _⟩ => rfl | ⟨3, _⟩ => rfl
  rw [val_main_v13_apply]
  unfold score
  refine Finset.sum_congr rfl fun k _ => ?_
  rw [hl, hr]

/-- A maximum over the last of four axes, read at an index: the fold of `max` over that axis's 128 coordinates, from the
    initial value's one element. -/
theorem hostMax_at (x : S8x128x128x128.Idx → EReal) (init : S_.Idx → EReal) (n : Fin 8) (p w : Fin 128) :
    Host.reduce (α := EReal) (FloatOps.maximumf (F := Ideal) (φ := .f32)) x init
        reducesTo_S8x128x128x128_S8x128x128_d3 h_S_ (ix3 n p w)
      = (Finset.univ : Finset (Fin 128)).fold max (init (Shape.Idx.first h_S_)) (fun u => x (ix4 n p w u)) := by
  have h : S8x128x128x128.Reduces [3] S8x128x128 := by decide
  refine (Host.reduce_eq_fold_single (α := EReal) (FloatOps.maximumf (F := Ideal) (φ := .f32)) x init
    reducesTo_S8x128x128x128_S8x128x128_d3 h h_S_ (ix3 n p w)).trans ?_
  have hl : (x ∘ h.lift (ix3 n p w)) = fun u : Fin 128 => x (ix4 n p w u) := funext fun u => congrArg x (funext fun a =>
    match a with | ⟨0, _⟩ => rfl | ⟨1, _⟩ => rfl | ⟨2, _⟩ => rfl | ⟨3, _⟩ => rfl)
  rw [hl]
  rfl

/-- The row maxima: the program takes the maximum of `−∞` with a fold of `max` that already starts from `−∞`. -/
theorem v16_at (x0 : (⟨S8x16384x128, .f32⟩ : BufTy).Contents (Elt Ideal)) (x1 : (⟨S128x128, .f32⟩ : BufTy).Contents (Elt Ideal)) (x2 : (⟨S128, .f32⟩ : BufTy).Contents (Elt Ideal))
    (x3 : (⟨S128x128, .f32⟩ : BufTy).Contents (Elt Ideal)) (x4 : (⟨S128, .f32⟩ : BufTy).Contents (Elt Ideal)) (n : Fin 8) (p w : Fin 128) :
    val_main_v16 (F := Ideal) x0 x1 x2 x3 x4 (ix3 n p w) = rowMax (fun w e => val_main_v4 (F := Ideal) x0 x1 x2 (ix4 n p w e)) (fun u e => val_main_v8 (F := Ideal) x0 x3 x4 (ix4 n p u e)) w := by
  have h14 : val_main_v14 (F := Ideal) x0 x1 x2 x3 x4 (ix3 n p w)
      = (Finset.univ : Finset (Fin 128)).fold max negInf (score (fun w e => val_main_v4 (F := Ideal) x0 x1 x2 (ix4 n p w e)) (fun u e => val_main_v8 (F := Ideal) x0 x3 x4 (ix4 n p u e)) w) := by
    refine (hostMax_at (val_main_v13 (F := Ideal) x0 x1 x2 x3 x4) (val_main_cst (F := Ideal)) n p w).trans ?_
    exact congrArg (fun f => (Finset.univ : Finset (Fin 128)).fold max negInf f)
      (funext fun u => v13_at x0 x1 x2 x3 x4 n p w u)
  rw [val_main_v16_apply, val_main_v15_apply, h14]
  unfold rowMax
  exact max_fold_self negInf _

/-- The row maximum broadcast back along the key axis. -/
theorem v18_at (x0 : (⟨S8x16384x128, .f32⟩ : BufTy).Contents (Elt Ideal)) (x1 : (⟨S128x128, .f32⟩ : BufTy).Contents (Elt Ideal)) (x2 : (⟨S128, .f32⟩ : BufTy).Contents (Elt Ideal))
    (x3 : (⟨S128x128, .f32⟩ : BufTy).Contents (Elt Ideal)) (x4 : (⟨S128, .f32⟩ : BufTy).Contents (Elt Ideal)) (n : Fin 8) (p w u : Fin 128) :
    val_main_v18 (F := Ideal) x0 x1 x2 x3 x4 (ix4 n p w u) = rowMax (fun w e => val_main_v4 (F := Ideal) x0 x1 x2 (ix4 n p w e)) (fun u e => val_main_v8 (F := Ideal) x0 x3 x4 (ix4 n p u e)) w := by
  have hi : idx_main_v17 (idx_main_v18 (ix4 n p w u)) = ix3 n p w := funext fun a =>
    match a with | ⟨0, _⟩ => rfl | ⟨1, _⟩ => rfl | ⟨2, _⟩ => rfl
  rw [val_main_v18_apply, val_main_v17_apply, hi, v16_at]

/-- The exponentials of the scores less their row's maximum. -/
theorem v20_at (x0 : (⟨S8x16384x128, .f32⟩ : BufTy).Contents (Elt Ideal)) (x1 : (⟨S128x128, .f32⟩ : BufTy).Contents (Elt Ideal)) (x2 : (⟨S128, .f32⟩ : BufTy).Contents (Elt Ideal))
    (x3 : (⟨S128x128, .f32⟩ : BufTy).Contents (Elt Ideal)) (x4 : (⟨S128, .f32⟩ : BufTy).Contents (Elt Ideal)) (n : Fin 8) (p w u : Fin 128) :
    val_main_v20 (F := Ideal) x0 x1 x2 x3 x4 (ix4 n p w u) = expScore (fun w e => val_main_v4 (F := Ideal) x0 x1 x2 (ix4 n p w e)) (fun u e => val_main_v8 (F := Ideal) x0 x3 x4 (ix4 n p u e)) w u := by
  rw [val_main_v20_apply, val_main_v19_apply, v13_at, v18_at]
  rfl

/-- Their row sums (the sum starts from the f32 zero). -/
theorem v21_at (x0 : (⟨S8x16384x128, .f32⟩ : BufTy).Contents (Elt Ideal)) (x1 : (⟨S128x128, .f32⟩ : BufTy).Contents (Elt Ideal)) (x2 : (⟨S128, .f32⟩ : BufTy).Contents (Elt Ideal))
    (x3 : (⟨S128x128, .f32⟩ : BufTy).Contents (Elt Ideal)) (x4 : (⟨S128, .f32⟩ : BufTy).Contents (Elt Ideal)) (n : Fin 8) (p w : Fin 128) :
    val_main_v21 (F := Ideal) x0 x1 x2 x3 x4 (ix3 n p w) = ∑ u : Fin 128, expScore (fun w e => val_main_v4 (F := Ideal) x0 x1 x2 (ix4 n p w e)) (fun u e => val_main_v8 (F := Ideal) x0 x3 x4 (ix4 n p u e)) w u := by
  have hi : ∀ k : Fin 128, idx_main_v21 (ix3 n p w) k = ix4 n p w k := fun k => funext fun a =>
    match a with | ⟨0, _⟩ => rfl | ⟨1, _⟩ => rfl | ⟨2, _⟩ => rfl | ⟨3, _⟩ => rfl
  rw [val_main_v21_apply, val_main_cst_1_apply]
  show Ideal.ofBits .f32 0x00000000#32 + _ = _
  rw [Ideal.ofBits_zero_f32, zero_add]
  refine Finset.sum_congr rfl fun k _ => ?_
  rw [hi, v20_at]

/-- The attention weights. -/
theorem v24_at (x0 : (⟨S8x16384x128, .f32⟩ : BufTy).Contents (Elt Ideal)) (x1 : (⟨S128x128, .f32⟩ : BufTy).Contents (Elt Ideal)) (x2 : (⟨S128, .f32⟩ : BufTy).Contents (Elt Ideal))
    (x3 : (⟨S128x128, .f32⟩ : BufTy).Contents (Elt Ideal)) (x4 : (⟨S128, .f32⟩ : BufTy).Contents (Elt Ideal)) (n : Fin 8) (p w u : Fin 128) :
    val_main_v24 (F := Ideal) x0 x1 x2 x3 x4 (ix4 n p w u) = weight (fun w e => val_main_v4 (F := Ideal) x0 x1 x2 (ix4 n p w e)) (fun u e => val_main_v8 (F := Ideal) x0 x3 x4 (ix4 n p u e)) w u := by
  have hi : idx_main_v22 (idx_main_v23 (ix4 n p w u)) = ix3 n p w := funext fun a =>
    match a with | ⟨0, _⟩ => rfl | ⟨1, _⟩ => rfl | ⟨2, _⟩ => rfl
  rw [val_main_v24_apply, val_main_v23_apply, val_main_v22_apply, hi, v21_at, v20_at]
  rfl

/-- The window's output: the weighted sum of the value rows. -/
theorem v25_at (x0 : (⟨S8x16384x128, .f32⟩ : BufTy).Contents (Elt Ideal)) (x1 : (⟨S128x128, .f32⟩ : BufTy).Contents (Elt Ideal)) (x2 : (⟨S128, .f32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) (n : Fin 8) (p w d : Fin 128) :
    val_main_v25 (F := Ideal) x0 x1 x2 x3 x4 x5 x6 (ix4 n p w d) = windowAttn (fun w e => val_main_v4 (F := Ideal) x0 x1 x2 (ix4 n p w e)) (fun u e => val_main_v8 (F := Ideal) x0 x3 x4 (ix4 n p u e)) (fun u d => val_main_v12 (F := Ideal) x0 x5 x6 (ix4 n p u d)) w d := by
  have hl : ∀ k : Fin 128, lidx_main_v25 (ix4 n p w d) k = ix4 n p w k := fun k => funext fun a =>
    match a with | ⟨0, _⟩ => rfl | ⟨1, _⟩ => rfl | ⟨2, _⟩ => rfl | ⟨3, _⟩ => rfl
  have hr : ∀ k : Fin 128, ridx_main_v25 (ix4 n p w d) k = ix4 n p k d := fun k => funext fun a =>
    match a with | ⟨0, _⟩ => rfl | ⟨1, _⟩ => rfl | ⟨2, _⟩ => rfl | ⟨3, _⟩ => rfl
  rw [val_main_v25_apply]
  unfold windowAttn
  refine Finset.sum_congr rfl fun k _ => ?_
  rw [hl, hr, v24_at]

/-- The same with the three projections named. -/
theorem window_at (x0 : (⟨S8x16384x128, .f32⟩ : BufTy).Contents (Elt Ideal)) (x1 : (⟨S128x128, .f32⟩ : BufTy).Contents (Elt Ideal)) (x2 : (⟨S128, .f32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) (n : Fin 8) (p w d : Fin 128) :
    val_main_v25 (F := Ideal) x0 x1 x2 x3 x4 x5 x6 (ix4 n p w d)
      = windowAttn (fun w e => proj x0 x1 x2 n (row p w) e) (fun u e => proj x0 x3 x4 n (row p u) e)
          (fun u d => proj x0 x5 x6 n (row p u) d) w d := by
  have hQ : (fun w e => val_main_v4 (F := Ideal) x0 x1 x2 (ix4 n p w e)) = fun w e => proj x0 x1 x2 n (row p w) e :=
    funext fun w => funext fun e => v4_at x0 x1 x2 n p w e
  have hK : (fun u e => val_main_v8 (F := Ideal) x0 x3 x4 (ix4 n p u e)) = fun u e => proj x0 x3 x4 n (row p u) e :=
    funext fun u => funext fun e => v8_at x0 x3 x4 n p u e
  have hV : (fun u d => val_main_v12 (F := Ideal) x0 x5 x6 (ix4 n p u d)) = fun u d => proj x0 x5 x6 n (row p u) d :=
    funext fun u => funext fun d => v12_at x0 x5 x6 n p u d
  rw [v25_at, hQ, hK, hV]

/-! ## The reshape back, and the result -/

/-- Row `s` of a batch is row `s mod 128` of window `s / 128`. -/
theorem idx26_at (n : Fin 8) (s : Fin 16384) (d : Fin 128) :
    idx_main_v26 (ix3 n s d)
      = ix4 n ⟨s.val / 128, by have := s.isLt; omega⟩ ⟨s.val % 128, Nat.mod_lt _ (by decide)⟩ d := by
  refine funext fun a => Fin.ext ?_
  have hn := n.isLt; have hs := s.isLt; have hd := d.isLt
  match a with
  | ⟨0, _⟩ => show ((n.val * 16384 + s.val) * 128 + d.val) / 2097152 = n.val; omega
  | ⟨1, _⟩ => show ((n.val * 16384 + s.val) * 128 + d.val) / 16384 % 128 = s.val / 128; omega
  | ⟨2, _⟩ => show ((n.val * 16384 + s.val) * 128 + d.val) / 128 % 128 = s.val % 128; omega
  | ⟨3, _⟩ => show ((n.val * 16384 + s.val) * 128 + d.val) % 128 = d.val; omega

theorem v26_at (x0 : (⟨S8x16384x128, .f32⟩ : BufTy).Contents (Elt Ideal)) (x1 : (⟨S128x128, .f32⟩ : BufTy).Contents (Elt Ideal)) (x2 : (⟨S128, .f32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) (n : Fin 8) (s : Fin 16384) (d : Fin 128) :
    val_main_v26 (F := Ideal) x0 x1 x2 x3 x4 x5 x6 (ix3 n s d) = G x0 x1 x2 x3 x4 x5 x6 (ix3 n s d) := by
  rw [val_main_v26_apply, idx26_at, window_at]
  rfl

/-- The reference program computes the specified function. -/
theorem ref_eq (x0 : (⟨S8x16384x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    Cert.ReferenceIdeal.Read.val_main_v26 (F := Ideal) x0 x1 x2 x3 x4 x5 x6 = Cert.WindowAttention.G x0 x1 x2 x3 x4 x5 x6 := by
  funext i
  calc val_main_v26 (F := Ideal) x0 x1 x2 x3 x4 x5 x6 i
      = val_main_v26 (F := Ideal) x0 x1 x2 x3 x4 x5 x6 (ix3 (i 0) (i 1) (i 2)) := congrArg _ (eq_ix3 i)
    _ = G x0 x1 x2 x3 x4 x5 x6 (ix3 (i 0) (i 1) (i 2)) := v26_at x0 x1 x2 x3 x4 x5 x6 (i 0) (i 1) (i 2)
    _ = G x0 x1 x2 x3 x4 x5 x6 i := (congrArg _ (eq_ix3 i)).symm

end Cert.ReferenceIdeal.RefValue

end
-- ==== Proof.lean ====
/-
  Windowed self-attention: a fused kernel against its plain reference, equal on the extended reals.

  Both programs take x (8 batches × 16384 rows × 128 features), three 128 × 128 weight matrices and three bias vectors,
  cut each batch's rows into 128 windows of 128 consecutive rows and compute, inside each window,
  softmax((x W_qᵀ + b_q)(x W_kᵀ + b_k)ᵀ) (x W_vᵀ + b_v), with no scaling of the scores.

  The reference does this with three separate projections on the whole array. The kernel first sets the three
  transposed weight matrices side by side and the three biases end to end (on the host), then, for each block of 4096
  rows of a batch, makes ONE product with the fused 128 × 384 matrix, cuts the result into its three column groups and
  treats the block's 32 windows at once. On the extended reals the two are the same function entry by entry
  (`Cert.WindowAttention.G`), with the same sums of the same products in the same order: column 128·g + e of the fused
  matrix is row e of the g-th weight matrix, row 128 j + w of block b is row w of window 32 b + j, and the changes of
  float format are the identity. No law of arithmetic is needed, so the precondition (finite inputs) is not used.

  The frames: each kernel program is seven host operations and one pipelined region whose body loads three blocks and
  overwrites one; its arguments are read, never written. The reference is thirty host operations on buffers of
  their own. The idealized kernel is the printed kernel read at the extended reals, with no rewrite applied.
-/
import proofs.«144813_j45097156608034_2_alg».proof.Defs
import proofs.«144813_j45097156608034_2_alg».proof.Proof.Gen.Kernel
import proofs.«144813_j45097156608034_2_alg».proof.Proof.Gen.KernelIdeal
import proofs.«144813_j45097156608034_2_alg».proof.Proof.Gen.ReferenceIdeal
import proofs.«144813_j45097156608034_2_alg».proof.Proof.Gen.Pre_finite_inputs
import proofs.«144813_j45097156608034_2_alg».proof.Proof.Gen.ReferenceIdeal.Run
import proofs.«144813_j45097156608034_2_alg».proof.Proof.Gen.ReferenceIdeal.Read
import proofs.«144813_j45097156608034_2_alg».proof.Proof.KernelFrame
import proofs.«144813_j45097156608034_2_alg».proof.Proof.KernelIdealFrame
import proofs.«144813_j45097156608034_2_alg».proof.Proof.KernelValue
import proofs.«144813_j45097156608034_2_alg».proof.Proof.RefValue
import Idealize.ShloMosaic.Adequacy
import Idealize.ShloMosaic.Init

noncomputable section

namespace Cert.Proof

open Idealize.ShloMosaic Idealize.SL.Sem

/-- The printed kernel runs and leaves its arguments as launched. -/
theorem frame_kernel : Cert.frame_Kernel := fun m ρ _ => Cert.Kernel.Frame.frame m ρ

/-- So does the kernel read at the extended reals. -/
theorem frame_kernelIdeal : Cert.frame_KernelIdeal := fun m ρ _ => Cert.KernelIdeal.Frame.frame m ρ

/-- The reference runs and leaves its arguments as launched: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- From memories that agree on the arguments both programs end with the specified function of the arguments in their
    result arrays. -/
theorem algebraic : Cert.algebraic_KernelIdeal_ReferenceIdeal := by
  intro m ρ m' ρ' _ hagree
  refine ⟨fun c => Cert.KernelIdeal.Result.spec m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.ref_eq]
  obtain ⟨a0, a1, a2, a3, a4, a5, a6⟩ := hagree c
  rw [a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
